-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x64 : Shape := ⟨3, ![1, 8192, 64]⟩
abbrev S8192x8192 : Shape := ⟨2, ![8192, 8192]⟩
abbrev S256x64 : Shape := ⟨2, ![256, 64]⟩
abbrev S1x1x64 : Shape := ⟨3, ![1, 1, 64]⟩
abbrev S_ : Shape := ⟨0, ![]⟩

class Facts : Prop where
  bcast_S_S1x8192x64 : S_.BroadcastsInDim S1x8192x64 (![] : Fin 0 → Fin S1x8192x64.rank)
  reducesTo_S1x8192x64_S_d0_1_2 : S1x8192x64.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x64 : S_.BroadcastsInDim S256x64 (![] : Fin 0 → Fin S256x64.rank)
  reducesTo_S256x64_S_d0_1 : S256x64.ReducesTo [0, 1] S_
  bcast_S_S1x1x64 : S_.BroadcastsInDim S1x1x64 (![] : Fin 0 → Fin S1x1x64.rank)
  reducesTo_S1x1x64_S_d0_1_2 : S1x1x64.ReducesTo [0, 1, 2] S_

variable [Facts]

def fn_part1 {F : FTy → Type} [FloatOps F] (main_v13 : IVec S_ 1) (main_v16 : IVec S1x1x64 1) : IVec S_ 1 :=
  let main_c_5 : IVec S_ 1 := constantI S_ 1 1#1
  let main_v17 : IVec S_ 1 := (fun x v => Host.reduce IntOp.andi x v reducesTo_S1x1x64_S_d0_1_2 h_S_) main_v16 main_c_5
  let main_v18 : IVec S_ 1 := andi main_v13 main_v17
  main_v18

def fn {F : FTy → Type} [FloatOps F] (main_arg0 : FVec F S1x8192x64 .f32) (main_arg1 : FVec F S8192x8192 .f32) (main_arg2 : FVec F S256x64 .f32) (main_arg3 : FVec F S1x1x64 .f32) : IVec S_ 1 :=
  let main_v0 : FVec F S1x8192x64 .f32 := Host.absf main_arg0
  let main_cst : FVec F S_ .f32 := constant S_ .f32 0x7F800000#32
  let main_v1 : FVec F S1x8192x64 .f32 := broadcastInDim S1x8192x64 ![] bcast_S_S1x8192x64 main_cst
  let main_v2 : IVec S1x8192x64 1 := cmpf .olt main_v0 main_v1
  let main_c : IVec S_ 1 := constantI S_ 1 1#1
  let main_v3 : IVec S_ 1 := (fun x v => Host.reduce IntOp.andi x v reducesTo_S1x8192x64_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S1x1x64 .f32 := Host.absf main_arg3
  let main_cst_4 : FVec F S_ .f32 := constant S_ .f32 0x7F800000#32
  let main_v15 : FVec F S1x1x64 .f32 := broadcastInDim S1x1x64 ![] bcast_S_S1x1x64 main_cst_4
  let main_v16 : IVec S1x1x64 1 := cmpf .olt main_v14 main_v15
  fn_part1 (F := F) main_v13 main_v16
-- ==== Kernel.lean ====
abbrev S1x8192x64 : Shape := ⟨3, ![1, 8192, 64]⟩
abbrev S8192x8192 : Shape := ⟨2, ![8192, 8192]⟩
abbrev S256x64 : Shape := ⟨2, ![256, 64]⟩
abbrev S1x1x64 : Shape := ⟨3, ![1, 1, 64]⟩
abbrev S8192x64x1 : Shape := ⟨3, ![8192, 64, 1]⟩
abbrev S8192x64 : Shape := ⟨2, ![8192, 64]⟩
abbrev S64x4x64 : Shape := ⟨3, ![64, 4, 64]⟩
abbrev S4x64x64 : Shape := ⟨3, ![4, 64, 64]⟩
abbrev S1x64 : Shape := ⟨2, ![1, 64]⟩
abbrev S512x8192 : Shape := ⟨2, ![512, 8192]⟩
abbrev S512x64 : Shape := ⟨2, ![512, 64]⟩
abbrev S4096x64 : Shape := ⟨2, ![4096, 64]⟩
abbrev S1x64x64 : Shape := ⟨3, ![1, 64, 64]⟩
abbrev S64x64 : Shape := ⟨2, ![64, 64]⟩
abbrev S256x2x64 : Shape := ⟨3, ![256, 2, 64]⟩
abbrev S1x4096x64 : Shape := ⟨3, ![1, 4096, 64]⟩

abbrev nBuf : Space → Nat
  | .hbm => 16
  | .vmem => 25
  | .smem => 0
  | _ => 0

abbrev bufTy : (tb : Table) → Fin (tcTables nBuf tb) → BufTy
  | .hbm, ⟨0, _⟩ => ⟨S1x8192x64, .f32⟩
  | .hbm, ⟨1, _⟩ => ⟨S8192x8192, .f32⟩
  | .hbm, ⟨2, _⟩ => ⟨S256x64, .f32⟩
  | .hbm, ⟨3, _⟩ => ⟨S1x1x64, .f32⟩
  | .hbm, ⟨4, _⟩ => ⟨S8192x64x1, .f32⟩
  | .hbm, ⟨5, _⟩ => ⟨S8192x64, .f32⟩
  | .hbm, ⟨6, _⟩ => ⟨S8192x64, .bf16⟩
  | .hbm, ⟨7, _⟩ => ⟨S64x4x64, .f32⟩
  | .hbm, ⟨8, _⟩ => ⟨S4x64x64, .f32⟩
  | .hbm, ⟨9, _⟩ => ⟨S4x64x64, .bf16⟩
  | .hbm, ⟨10, _⟩ => ⟨S1x64, .f32⟩
  | .hbm, ⟨11, _⟩ => ⟨S8192x64, .bf16⟩
  | .hbm, ⟨12, _⟩ => ⟨S8192x8192, .bf16⟩
  | .hbm, ⟨13, _⟩ => ⟨S8192x64, .bf16⟩
  | .hbm, ⟨14, _⟩ => ⟨S4096x64, .f32⟩
  | .hbm, ⟨15, _⟩ => ⟨S1x4096x64, .f32⟩
  | .local _ .vmem, ⟨0, _⟩ => ⟨S512x8192, .f32⟩
  | .local _ .vmem, ⟨1, _⟩ => ⟨S512x8192, .f32⟩
  | .local _ .vmem, ⟨2, _⟩ => ⟨S8192x64, .bf16⟩
  | .local _ .vmem, ⟨3, _⟩ => ⟨S512x64, .bf16⟩
  | .local _ .vmem, ⟨4, _⟩ => ⟨S512x64, .bf16⟩
  | .local _ .vmem, ⟨5, _⟩ => ⟨S512x8192, .bf16⟩
  | .local _ .vmem, ⟨6, _⟩ => ⟨S512x8192, .bf16⟩
  | .local _ .vmem, ⟨7, _⟩ => ⟨S512x8192, .bf16⟩
  | .local _ .vmem, ⟨8, _⟩ => ⟨S512x8192, .bf16⟩
  | .local _ .vmem, ⟨9, _⟩ => ⟨S8192x64, .bf16⟩
  | .local _ .vmem, ⟨10, _⟩ => ⟨S512x64, .f32⟩
  | .local _ .vmem, ⟨11, _⟩ => ⟨S512x64, .f32⟩
  | .local _ .vmem, ⟨12, _⟩ => ⟨S512x64, .bf16⟩
  | .local _ .vmem, ⟨13, _⟩ => ⟨S512x64, .bf16⟩
  | .local _ .vmem, ⟨14, _⟩ => ⟨S512x8192, .bf16⟩
  | .local _ .vmem, ⟨15, _⟩ => ⟨S512x8192, .bf16⟩
  | .local _ .vmem, ⟨16, _⟩ => ⟨S8192x64, .bf16⟩
  | .local _ .vmem, ⟨17, _⟩ => ⟨S512x64, .f32⟩
  | .local _ .vmem, ⟨18, _⟩ => ⟨S512x64, .f32⟩
  | .local _ .vmem, ⟨19, _⟩ => ⟨S512x64, .bf16⟩
  | .local _ .vmem, ⟨20, _⟩ => ⟨S512x64, .bf16⟩
  | .local _ .vmem, ⟨21, _⟩ => ⟨S4x64x64, .bf16⟩
  | .local _ .vmem, ⟨22, _⟩ => ⟨S1x64, .f32⟩
  | .local _ .vmem, ⟨23, _⟩ => ⟨S256x64, .f32⟩
  | .local _ .vmem, ⟨24, _⟩ => ⟨S256x64, .f32⟩
  | _, _ => ⟨S1x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c512_i32 : BitVec 32 := 512#32
  let v16 : BitVec 32 := Scalar.muli arg0 c512_i32
  let v17 : Index := Scalar.indexCast v16
  let c0_10 : Index := 0#32
  ![v17.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x64x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S1x8192x64_S8192x64x1_1_2_0 : S1x8192x64.Transposes [1, 2, 0] S8192x64x1
  shapeCasts_S8192x64x1_S8192x64 : S8192x64x1.ShapeCasts S8192x64
  bitsLt_bf16_f32 : FTy.bits .bf16 < FTy.bits .f32
  shapeCasts_S256x64_S64x4x64 : S256x64.ShapeCasts S64x4x64
  transposes_S64x4x64_S4x64x64_1_0_2 : S64x4x64.Transposes [1, 0, 2] S4x64x64
  shapeCasts_S1x1x64_S1x64 : S1x1x64.ShapeCasts S1x64
  inb_S512x8192_S512x8192_0_0 : ∀ a, (![0, 0] : Fin 2 → Nat) a + S512x8192.size a ≤ S512x8192.size a
  h_S512x8192 : 0 < S512x8192.numel
  packedbf16_S512x8192_S512x8192_0_0 : (Rect.unit (s := S512x8192) ![0, 0] S512x8192.size inb_S512x8192_S512x8192_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  shapeCasts_S512x8192_S512x8192 : S512x8192.ShapeCasts S512x8192
  shapeCasts_S512x64_S512x64 : S512x64.ShapeCasts S512x64
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  shapeCasts_S512x64_S256x2x64 : S512x64.ShapeCasts S256x2x64
  reduces_S256x2x64_S256x64 : S256x2x64.Reduces [1] S256x64
  inb_S256x64_S256x64_0_0 : ∀ a, (![0, 0] : Fin 2 → Nat) a + S256x64.size a ≤ S256x64.size a
  h_S256x64 : 0 < S256x64.numel
  shapeCasts_S4096x64_S1x4096x64 : S4096x64.ShapeCasts S1x4096x64
  dot_S512x8192_S8192x64_S512x64_1_0_0_1_n_n_wf : DotDims.WF S512x8192 S8192x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .bf16 = 32 ∨ (Rect.block (s := S8192x64) S512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8192.size a ≤ S8192x8192.size a
  hwx0_3 : ∀ i : grid0.Coords, EltTy.bits .bf16 = 32 ∨ (Rect.block (s := S8192x8192) S512x8192.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .f32 = 32 ∨ (Rect.block (s := S8192x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S8192x64.size a
  hwx1_3 : ∀ i : grid1.Coords, EltTy.bits .bf16 = 32 ∨ (Rect.block (s := S8192x64) S512x64.size (cc1_transform_3 i) (hinb1_3 i)).WholeWords (EltTy.packing .bf16)
  hrank2 : 0 < grid2.rank
  k2_off1_inb : ∀ i : grid2.Coords, ∀ a, (k2_off1 i) a + S512x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .bf16 = 32 ∨ (Rect.block (s := S8192x8192) S512x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S8192x64.size a
  hwx2_2 : ∀ i : grid2.Coords, EltTy.bits .f32 = 32 ∨ (Rect.block (s := S8192x64) S512x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S8192x64.size a
  hwx2_3 : ∀ i : grid2.Coords, EltTy.bits .bf16 = 32 ∨ (Rect.block (s := S8192x64) S512x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x64x64.size a ≤ S4x64x64.size a
  hwx2_4 : ∀ i : grid2.Coords, EltTy.bits .bf16 = 32 ∨ (Rect.block (s := S4x64x64) S4x64x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x64.size a ≤ S4096x64.size a
  hwx2_6 : ∀ i : grid2.Coords, EltTy.bits .f32 = 32 ∨ (Rect.block (s := S4096x64) S256x64.size (cc2_transform_6 i) (hinb2_6 i)).WholeWords (EltTy.packing .f32)

variable [Facts₀]

def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S512x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7_1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7_1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7_0) S512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S4x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S256x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1x8192x64 : Shape := ⟨3, ![1, 8192, 64]⟩
abbrev S8192x8192 : Shape := ⟨2, ![8192, 8192]⟩
abbrev S256x64 : Shape := ⟨2, ![256, 64]⟩
abbrev S1x1x64 : Shape := ⟨3, ![1, 1, 64]⟩
abbrev S8192x64x1 : Shape := ⟨3, ![8192, 64, 1]⟩
abbrev S8192x64 : Shape := ⟨2, ![8192, 64]⟩
abbrev S_ : Shape := ⟨0, ![]⟩
abbrev S4x8192x64 : Shape := ⟨3, ![4, 8192, 64]⟩
abbrev S4x8192x64x1 : Shape := ⟨4, ![4, 8192, 64, 1]⟩
abbrev S1x8192x64x4 : Shape := ⟨4, ![1, 8192, 64, 4]⟩
abbrev S8192x256 : Shape := ⟨2, ![8192, 256]⟩
abbrev S1x4096x2x64 : Shape := ⟨4, ![1, 4096, 2, 64]⟩
abbrev S1x4096x64 : Shape := ⟨3, ![1, 4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x64, .f32⟩
  | .hbm, ⟨1, _⟩ => ⟨S8192x8192, .f32⟩
  | .hbm, ⟨2, _⟩ => ⟨S256x64, .f32⟩
  | .hbm, ⟨3, _⟩ => ⟨S1x1x64, .f32⟩
  | .hbm, ⟨4, _⟩ => ⟨S8192x64x1, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S1x8192x64, .f32⟩
  | .hbm, ⟨18, _⟩ => ⟨S1x8192x64, .f32⟩
  | .hbm, ⟨19, _⟩ => ⟨S1x8192x64, .f32⟩
  | .hbm, ⟨20, _⟩ => ⟨S1x8192x64, .f32⟩
  | .hbm, ⟨21, _⟩ => ⟨S4x8192x64, .f32⟩
  | .hbm, ⟨22, _⟩ => ⟨S4x8192x64x1, .f32⟩
  | .hbm, ⟨23, _⟩ => ⟨S1x8192x64x4, .f32⟩
  | .hbm, ⟨24, _⟩ => ⟨S8192x256, .f32⟩
  | .hbm, ⟨25, _⟩ => ⟨S8192x64, .f32⟩
  | .hbm, ⟨26, _⟩ => ⟨S1x8192x64, .f32⟩
  | .hbm, ⟨27, _⟩ => ⟨S1x8192x64, .f32⟩
  | .hbm, ⟨28, _⟩ => ⟨S1x8192x64, .f32⟩
  | .hbm, ⟨29, _⟩ => ⟨S_, .f32⟩
  | .hbm, ⟨30, _⟩ => ⟨S1x8192x64, .f32⟩
  | .hbm, ⟨31, _⟩ => ⟨S1x8192x64, .f32⟩
  | .hbm, ⟨32, _⟩ => ⟨S1x4096x2x64, .f32⟩
  | .hbm, ⟨33, _⟩ => ⟨S_, .f32⟩
  | .hbm, ⟨34, _⟩ => ⟨S1x4096x64, .f32⟩
  | _, _ => ⟨S1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  transposes_S1x8192x64_S8192x64x1_1_2_0 : S1x8192x64.Transposes [1, 2, 0] S8192x64x1
  shapeCasts_S8192x64x1_S8192x64 : S8192x64x1.ShapeCasts S8192x64
  bcast_S_S8192x64 : S_.BroadcastsInDim S8192x64 (![] : Fin 0 → Fin S8192x64.rank)
  bcast_S8192x64_S1x8192x64_1_2 : S8192x64.BroadcastsInDim S1x8192x64 (![1, 2] : Fin 2 → Fin S1x8192x64.rank)
  concatenates_S1x8192x64_S1x8192x64_S1x8192x64_S1x8192x64_S4x8192x64_d0 : Shape.Concatenates [S1x8192x64, S1x8192x64, S1x8192x64, S1x8192x64] S4x8192x64 0
  shapeCasts_S4x8192x64_S4x8192x64x1 : S4x8192x64.ShapeCasts S4x8192x64x1
  transposes_S4x8192x64x1_S1x8192x64x4_3_1_2_0 : S4x8192x64x1.Transposes [3, 1, 2, 0] S1x8192x64x4
  shapeCasts_S1x8192x64x4_S8192x256 : S1x8192x64x4.ShapeCasts S8192x256
  shapeCasts_S8192x64_S1x8192x64 : S8192x64.ShapeCasts S1x8192x64
  bcast_S1x1x64_S1x8192x64_0_1_2 : S1x1x64.BroadcastsInDim S1x8192x64 (![0, 1, 2] : Fin 3 → Fin S1x8192x64.rank)
  bcast_S_S1x8192x64 : S_.BroadcastsInDim S1x8192x64 (![] : Fin 0 → Fin S1x8192x64.rank)
  shapeCasts_S1x8192x64_S1x4096x2x64 : S1x8192x64.ShapeCasts S1x4096x2x64
  reducesTo_S1x4096x2x64_S1x4096x64_d2 : S1x4096x2x64.ReducesTo [2] S1x4096x64
  h_S_ : 0 < S_.numel
  dot_S8192x8192_S8192x64_S8192x64_1_0_0_1_n_n_wf : DotDims.WF S8192x8192 S8192x64 S8192x64 [1] [0] [0] [1] [] []
  dot_S8192x256_S256x64_S8192x64_1_0_0_1_n_n_wf : DotDims.WF S8192x256 S256x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

class Facts : Prop extends Facts₀ where

variable [Facts]
-- ==== Proof.ValueRun.lean ====
/-
  The kernel program's run with its result named: every weakly fair execution from a memory with zero counters
  terminates, nothing faulting, with the result buffer at the contents the last boundary of the run holds for it,
  and the four argument arrays as launched.

  The run is the program's segments — the host's preparation, the three passes, the host's last reshape — launched
  together; at the end the thread holds every buffer that outlives the run at the last boundary's contents, and the
  final memory is read against that: the result buffer as it stands there, each argument walked back to the launch.
-/
import proofs.«164922_g21182778704682_cont_8to1_185_7_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.ValueRun

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.Spec.lean ====
/-
  The layer as one function of its four argument arrays, over the extended reals.

  A graph signal `x` (one batch entry, 8192 nodes, 64 features) is read as the matrix `feat x` (node, feature).
  With the operator `L` (8192 × 8192) the Chebyshev recurrence gives three more matrices of the same shape:
  `X1 = L · X0`, `X2 = 2 · (L · X1) − X0`, `X3 = 2 · (L · X2) − X1`.  The weight `W` has 256 = 64 · 4 rows, row
  `4 f + d` belonging to feature `f` and degree `d`; `wdeg W d` is the 64 × 64 matrix of degree `d`.  The combination
  is `X0 · W₀ + X1 · W₁ + X2 · W₂ + X3 · W₃` (added in that order), the bias of the output feature is added, the
  result is cut below at zero, and consecutive node pairs are pooled by their maximum, taken from −∞.

  The one law proved here: a sum over the 256 rows of `W` is the sum of the four sums over the 64 rows of each
  degree — a re-indexing of a finite sum in a commutative monoid, so it holds at the infinities too.
-/
import Idealize.ShloMosaic.Lib.ValueIdx
import Idealize.ShloMosaic.PureOps.Ideal.Laws
import proofs.«164922_g21182778704682_cont_8to1_185_7_alg».proof.Proof.LibMatProd

noncomputable section

open scoped BigOperators

namespace ChebLayer

open Idealize.ShloMosaic Idealize.ShloMosaic.ValueIdx MatProd

/-- An `n × m` array of extended reals. -/
abbrev Mat (n m : ℕ) := (⟨2, ![n, m]⟩ : Shape).Idx → EReal

/-- The factor of the recurrence, as the float word both programs write for it. -/
def two : EReal := Ideal.ofBits .f32 0x40000000#32

/-- The signal as a matrix: entry (node, feature) of the one batch entry. -/
def feat (x : (⟨3, ![1, 8192, 64]⟩ : Shape).Idx → EReal) : Mat 8192 64 :=
  fun i => x (ix3 (0 : Fin 1) (⟨(i 0).val, idx2_lt0 i⟩ : Fin 8192) (⟨(i 1).val, idx2_lt1 i⟩ : Fin 64))

/-- One step of the recurrence: `2 · (L · a) − b`. -/
def step (L : Mat 8192 8192) (a b : Mat 8192 64) : Mat 8192 64 := fun i => two * mm L a i - b i

def X1 (L : Mat 8192 8192) (x : (⟨3, ![1, 8192, 64]⟩ : Shape).Idx → EReal) : Mat 8192 64 := mm L (feat x)
def X2 (L : Mat 8192 8192) (x : (⟨3, ![1, 8192, 64]⟩ : Shape).Idx → EReal) : Mat 8192 64 := step L (X1 L x) (feat x)
def X3 (L : Mat 8192 8192) (x : (⟨3, ![1, 8192, 64]⟩ : Shape).Idx → EReal) : Mat 8192 64 := step L (X2 L x) (X1 L x)

/-- The weight's rows of degree `d`: row `f` of the result is row `4 f + d` of `W`. -/
def wdeg (W : Mat 256 64) (d : Fin 4) : Mat 64 64 :=
  fun i => W (ix2 (⟨4 * (i 0).val + d.val, by have := idx2_lt0 i; have := d.isLt; omega⟩ : Fin 256) (⟨(i 1).val, idx2_lt1 i⟩ : Fin 64))

/-- The four products, added in order of degree. -/
def comb (L : Mat 8192 8192) (x : (⟨3, ![1, 8192, 64]⟩ : Shape).Idx → EReal) (W : Mat 256 64) : Mat 8192 64 :=
  fun i => mm (feat x) (wdeg W 0) i + mm (X1 L x) (wdeg W 1) i + mm (X2 L x) (wdeg W 2) i + mm (X3 L x) (wdeg W 3) i

/-- Bias added, cut below at zero. -/
def act (L : Mat 8192 8192) (x : (⟨3, ![1, 8192, 64]⟩ : Shape).Idx → EReal) (W : Mat 256 64)
    (b : (⟨3, ![1, 1, 64]⟩ : Shape).Idx → EReal) : Mat 8192 64 :=
  fun i => max (comb L x W i + b (ix3 (0 : Fin 1) (0 : Fin 1) (⟨(i 1).val, idx2_lt1 i⟩ : Fin 64))) (Ideal.ofBits .f32 0x00000000#32)

/-- Row `2 r + p` of a 8192-row array, for `r` among 4096 and `p` among 2. -/
def pairRow (r : Fin 4096) (p : Fin 2) : Fin 8192 := ⟨2 * r.val + p.val, by have := r.isLt; have := p.isLt; omega⟩

/-- The maximum of a node pair, from −∞, at rows `r` and column `o`. -/
def pool (Y : Mat 8192 64) (r : Fin 4096) (o : Fin 64) : EReal :=
  (Finset.univ : Finset (Fin 2)).fold max (Ideal.ofBits .f32 0xFF800000#32) (fun p => Y (ix2 (pairRow r p) o))

/-- The layer's result: for the one batch entry, node pair `r`, output feature `o`. -/
def layer (L : Mat 8192 8192) (x : (⟨3, ![1, 8192, 64]⟩ : Shape).Idx → EReal) (W : Mat 256 64)
    (b : (⟨3, ![1, 1, 64]⟩ : Shape).Idx → EReal) : (⟨3, ![1, 4096, 64]⟩ : Shape).Idx → EReal :=
  fun i => pool (act L x W b) (⟨(i 1).val, (i 1).isLt⟩ : Fin 4096) (⟨(i 2).val, (i 2).isLt⟩ : Fin 64)

/-- Row `4 f + d` among 256. -/
def wrow (f : Fin 64) (d : Fin 4) : Fin 256 := ⟨4 * f.val + d.val, by have := f.isLt; have := d.isLt; omega⟩

/-- A sum over 256 = 64 · 4 indices is the sum over the four residues of the sums over the 64 quotients, the residues
    added in order. -/
theorem sum_by_degree {M : Type*} [AddCommMonoid M] (h : Fin 256 → M) :
    ∑ j : Fin 256, h j
      = (∑ f : Fin 64, h (wrow f 0)) + (∑ f : Fin 64, h (wrow f 1)) + (∑ f : Fin 64, h (wrow f 2)) + ∑ f : Fin 64, h (wrow f 3) := by
  have e : ∀ (f : Fin 64) (d : Fin 4), (finProdFinEquiv : Fin 64 × Fin 4 ≃ Fin 256) (f, d) = wrow f d := fun f d =>
    Fin.ext (by show d.val + 4 * f.val = 4 * f.val + d.val; omega)
  rw [← Equiv.sum_comp (finProdFinEquiv : Fin 64 × Fin 4 ≃ Fin 256) h, Fintype.sum_prod_type, Finset.sum_comm,
    Fin.sum_univ_four]
  simp only [e]

end ChebLayer

end
-- ==== Proof.Bodies.lean ====
/-
  What each pass's body computes, read at an index, over the extended reals.

  Every matrix product in the three bodies contracts the columns of its left operand against the rows of its right
  one and accumulates onto zero, so at coordinates (p, q) it is the sum over l of left (p, l) · right (l, q).
  Changes of float format are the identity here, a shape cast to the same shape is the identity, a cast from
  [1, 64, 64] to [64, 64] drops the unit axis, and a [1, 64] row broadcast down 512 rows reads its column.
-/
import proofs.«164922_g21182778704682_cont_8to1_185_7_alg».proof.Proof.Gen.KernelIdeal.Skeleton
import proofs.«164922_g21182778704682_cont_8to1_185_7_alg».proof.Proof.LibMatProd
import proofs.«164922_g21182778704682_cont_8to1_185_7_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Bodies

open Cert.KernelIdeal Cert.KernelIdeal.Gen Idealize.ShloMosaic Idealize.ShloMosaic.ValueIdx MatProd

/-! ## The two contraction records: which operand coordinate each result and contraction coordinate feeds -/

abbrev dBig := dot_S512x8192_S8192x64_S512x64_1_0_0_1_n_n
abbrev dSmall := dot_S512x64_S64x64_S512x64_1_0_0_1_n_n

theorem big_l0 (i : S512x64.Idx) (q : dBig.contr.Idx) : (dBig.lhsIdx i q 0).val = (i 0).val := by
  unfold DotDims.lhsIdx
  rw [dif_neg (show ¬(0 : Fin S512x8192.rank) ∈ dBig.lhsBatch by decide), dif_pos (show (0 : Fin S512x8192.rank) ∈ dBig.lhsNonContracting by decide)]
  rfl
theorem big_l1 (i : S512x64.Idx) (q : dBig.contr.Idx) : (dBig.lhsIdx i q 1).val = (q ⟨0, by decide⟩).val :=
  dBig.lhsIdx_val_of_single rfl i q
theorem big_r0 (i : S512x64.Idx) (q : dBig.contr.Idx) : (dBig.rhsIdx i q 0).val = (q ⟨0, by decide⟩).val :=
  dBig.rhsIdx_val_of_single rfl i q
theorem big_r1 (i : S512x64.Idx) (q : dBig.contr.Idx) : (dBig.rhsIdx i q 1).val = (i 1).val := by
  unfold DotDims.rhsIdx
  rw [dif_neg (show ¬(1 : Fin S8192x64.rank) ∈ dBig.rhsBatch by decide), dif_pos (show (1 : Fin S8192x64.rank) ∈ dBig.rhsNonContracting by decide)]
  rfl

theorem small_l0 (i : S512x64.Idx) (q : dSmall.contr.Idx) : (dSmall.lhsIdx i q 0).val = (i 0).val := by
  unfold DotDims.lhsIdx
  rw [dif_neg (show ¬(0 : Fin S512x64.rank) ∈ dSmall.lhsBatch by decide), dif_pos (show (0 : Fin S512x64.rank) ∈ dSmall.lhsNonContracting by decide)]
  rfl
theorem small_l1 (i : S512x64.Idx) (q : dSmall.contr.Idx) : (dSmall.lhsIdx i q 1).val = (q ⟨0, by decide⟩).val :=
  dSmall.lhsIdx_val_of_single rfl i q
theorem small_r0 (i : S512x64.Idx) (q : dSmall.contr.Idx) : (dSmall.rhsIdx i q 0).val = (q ⟨0, by decide⟩).val :=
  dSmall.rhsIdx_val_of_single rfl i q
theorem small_r1 (i : S512x64.Idx) (q : dSmall.contr.Idx) : (dSmall.rhsIdx i q 1).val = (i 1).val := by
  unfold DotDims.rhsIdx
  rw [dif_neg (show ¬(1 : Fin S64x64.rank) ∈ dSmall.rhsBatch by decide), dif_pos (show (1 : Fin S64x64.rank) ∈ dSmall.rhsNonContracting by decide)]
  rfl

/-- A 512 × 8192 block times an 8192 × 64 array, onto zero: the product's entry. -/
theorem bigProd {φ₁ φ₂ : FTy} (a : FVec Ideal S512x8192 φ₁) (b : FVec Ideal S8192x64 φ₂) (p : Fin 512) (q : Fin 64) :
    FloatOps.matmul dBig none a b (constant (F := Ideal) S512x64 .f32 0x00000000#32) (ix2 p q) = entry a b p q :=
  matmul_zero_entry dBig none rfl rfl big_l0 big_l1 big_r0 big_r1 a b p q

/-- A 512 × 64 block times a 64 × 64 array, onto zero: the product's entry. -/
theorem smallProd {φ₁ φ₂ : FTy} (a : FVec Ideal S512x64 φ₁) (b : FVec Ideal S64x64 φ₂) (p : Fin 512) (q : Fin 64) :
    FloatOps.matmul dSmall none a b (constant (F := Ideal) S512x64 .f32 0x00000000#32) (ix2 p q) = entry a b p q :=
  matmul_zero_entry dSmall none rfl rfl small_l0 small_l1 small_r0 small_r1 a b p q

/-! ## Pass 1: the operator's block re-formatted, and its product with the signal -/

theorem pass1_copy (v0 : Vec Ideal S512x8192 .f32) (j : S512x8192.Idx) : k0_pay1 v0 j = v0 j := rfl

theorem pass1_prod (v0 : Vec Ideal S512x8192 .f32) (v3 : Vec Ideal S8192x64 .bf16) (p : Fin 512) (q : Fin 64) :
    k0_pay2 v0 v3 (ix2 p q) = entry v0 v3 p q := by
  unfold k0_pay2
  refine (bigProd (k0_pay1 v0) (shapeCast S8192x64 v3 shapeCasts_S8192x64_S8192x64) p q).trans ?_
  rw [shapeCast_self]
  rfl

/-! ## Pass 2: one step of the recurrence on a row block -/

theorem pass2_step (v0 : Vec Ideal S512x8192 .bf16) (v2 : Vec Ideal S8192x64 .bf16) (v7 : Vec Ideal S512x64 .f32)
    (p : Fin 512) (q : Fin 64) :
    k1_pay1 v0 v2 v7 (ix2 p q) = ChebLayer.two * entry v0 v2 p q - v7 (ix2 p q) := by
  unfold k1_pay1
  show ChebLayer.two * FloatOps.matmul dBig none (shapeCast S512x8192 v0 shapeCasts_S512x8192_S512x8192)
      (shapeCast S8192x64 v2 shapeCasts_S8192x64_S8192x64) (constant (F := Ideal) S512x64 .f32 0x00000000#32) (ix2 p q)
      - shapeCast S512x64 v7 shapeCasts_S512x64_S512x64 (ix2 p q) = _
  rw [bigProd, shapeCast_self, shapeCast_self, shapeCast_self]

/-! ## Pass 3: the third step of the recurrence, the four products with the weight's degrees, bias, cut at zero, pair maximum -/

/-- The weight's slab of one degree, its unit axis dropped: entry (f, o). -/
theorem slab_apply (w : Vec Ideal S1x64x64 .bf16) (f o : Fin 64) :
    shapeCast S64x64 w shapeCasts_S1x64x64_S64x64 (ix2 f o) = w (ix3 (0 : Fin 1) f o) :=
  shapeCast_1ab_ab_apply w shapeCasts_S1x64x64_S64x64 f o

/-- The recurrence's third step on a row block; the subtracted block arrives in the short format, which changes nothing here. -/
theorem pass3_step (v0 : Vec Ideal S512x8192 .bf16) (v2 : Vec Ideal S8192x64 .bf16) (v7 : Vec Ideal S512x64 .bf16)
    (p : Fin 512) (q : Fin 64) :
    k2_pay3 v0 v2 v7 (ix2 p q) = ChebLayer.two * entry v0 v2 p q - v7 (ix2 p q) := by
  unfold k2_pay3
  show ChebLayer.two * FloatOps.matmul dBig none (shapeCast S512x8192 v0 shapeCasts_S512x8192_S512x8192)
      (shapeCast S8192x64 v2 shapeCasts_S8192x64_S8192x64) (constant (F := Ideal) S512x64 .f32 0x00000000#32) (ix2 p q)
      - shapeCast S512x64 v7 shapeCasts_S512x64_S512x64 (ix2 p q) = _
  rw [bigProd, shapeCast_self, shapeCast_self, shapeCast_self]

/-- The products of degrees 0, 1, 2, added in that order. -/
theorem pass3_first3 (v11 : Vec Ideal S512x64 .f32) (v14 v18 : Vec Ideal S512x64 .bf16) (v20 v23 v27 : Vec Ideal S1x64x64 .bf16)
    (p : Fin 512) (q : Fin 64) :
    k2_pay2 v11 v14 v18 v20 v23 v27 (ix2 p q)
      = entry v11 (shapeCast S64x64 v20 shapeCasts_S1x64x64_S64x64) p q
        + entry v14 (shapeCast S64x64 v23 shapeCasts_S1x64x64_S64x64) p q
        + entry v18 (shapeCast S64x64 v27 shapeCasts_S1x64x64_S64x64) p q := by
  unfold k2_pay2
  show (_ + _ : EReal) + _ = _
  refine congrArg₂ (· + ·) (congrArg₂ (· + ·) ?_ ?_) ?_
  · exact (smallProd _ _ p q).trans (by rw [shapeCast_self]; rfl)
  · exact (smallProd _ _ p q).trans (by rw [shapeCast_self])
  · exact (smallProd _ _ p q).trans (by rw [shapeCast_self])

/-- Row 2 r + p of a 512-row block, for r among 256 and p among 2. -/
def row2 (r : Fin 256) (p : Fin 2) : Fin 512 := ⟨2 * r.val + p.val, by have := r.isLt; have := p.isLt; omega⟩

/-- What pass 3 stores at (r, o) of its 256 × 64 block: the maximum, from −∞, over the row pair (2 r, 2 r + 1) of
    the combination so far plus the product of degree 3, plus the bias, cut below at zero. -/
theorem pass3_pool (v30 : FVec Ideal S512x64 .f32) (v31 : FVec Ideal S512x64 .bf16) (v32 : Vec Ideal S1x64x64 .bf16)
    (v36 : Vec Ideal S1x64 .f32) (r : Fin 256) (o : Fin 64) :
    k2_pay1 v30 v31 v32 v36 (ix2 r o)
      = (Finset.univ : Finset (Fin 2)).fold max (Ideal.ofBits .f32 0xFF800000#32) (fun p =>
          max (v30 (ix2 (row2 r p) o) + entry v31 (shapeCast S64x64 v32 shapeCasts_S1x64x64_S64x64) (row2 r p) o
            + v36 (ix2 (0 : Fin 1) o)) (Ideal.ofBits .f32 0x00000000#32)) := by
  unfold k2_pay1
  refine (Ideal.multiReduction_maximumf_single (φ := .f32) _ 0xFF800000#32 reduces_S256x2x64_S256x64 (.inl rfl) rfl (ix2 r o)).trans ?_
  refine Finset.fold_congr fun p _ => ?_
  have hl : reduces_S256x2x64_S256x64.lift (ix2 r o) p = ix3 r (⟨p.val, p.isLt⟩ : Fin 2) o := by
    funext a; apply Fin.ext
    match a with
    | ⟨0, _⟩ => rfl
    | ⟨1, _⟩ => rfl
    | ⟨2, _⟩ => rfl
  show shapeCast S256x2x64 _ shapeCasts_S512x64_S256x2x64 (reduces_S256x2x64_S256x64.lift (ix2 r o) p) = _
  rw [hl]
  refine (shapeCast_apply _ shapeCasts_S512x64_S256x2x64 (ix3 r (⟨p.val, p.isLt⟩ : Fin 2) o) (ix2 (row2 r ⟨p.val, p.isLt⟩) o) (by
    rw [Shape.rowMajor_val_two, Shape.rowMajor_val_three]
    show (2 * r.val + p.val) * 64 + o.val = (r.val * 2 + p.val) * 64 + o.val
    omega)).trans ?_
  show max (v30 _ + FloatOps.matmul dSmall none v31 (shapeCast S64x64 v32 shapeCasts_S1x64x64_S64x64) (constant (F := Ideal) S512x64 .f32 0x00000000#32) _
      + broadcastTo S512x64 (shapeCast S1x64 v36 shapeCasts_S1x64_S1x64) broadcasts_S1x64_S512x64 _) (Ideal.ofBits .f32 0x00000000#32) = _
  rw [smallProd, broadcastTo_1b_ab_apply, shapeCast_self]
  rfl

end Cert.KernelIdeal.Bodies

end
-- ==== Proof.Pass1.lean ====
/-
  Pass 1 over its whole grid: what its two output arrays hold after the run, as functions of the arrays it found.

  The grid has 16 points; at point t the operator's window, and both output windows, sit at row block t (rows
  512 t … 512 t + 511, all columns), while the signal's window is the whole 8192 × 64 array.  The body stores the
  operator's block unchanged, and the block's product with the signal.  So row block t of the first result is
  row block t of the product (operator · signal), row block t of the second is row block t of the operator, and
  the 16 row blocks fill each array.
-/
import proofs.«164922_g21182778704682_cont_8to1_185_7_alg».proof.Proof.Gen.KernelIdeal.Frame
import proofs.«164922_g21182778704682_cont_8to1_185_7_alg».proof.Proof.Bodies

set_option maxRecDepth 16384

noncomputable section

open scoped BigOperators

namespace Cert.KernelIdeal.Pass1

open Cert.KernelIdeal Cert.KernelIdeal.Gen Cert.KernelIdeal.Bodies Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window sits at point t: block (t, 0) for the row-blocked ones, block (0, 0) for the whole signal. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt16 (t : Fin cfg0.N) : t.val < 16 := lt_of_lt_of_eq t.isLt N_0

/-- The product array: (operator · signal). -/
def prod (A : S8192x8192.Idx → EReal) (y : S8192x64.Idx → EReal) : S8192x64.Idx → EReal := mm A y

/-- The operator's block at point t, at local (p, l), is the operator at (512 t + p, l). -/
theorem opBlock (c : Dev nD) (t : Fin cfg0.N) (p : Fin 512) (l : Fin 8192) :
    iblk0 V c 0 t (ix2 p l) = V c main_arg1 (ix2 (⟨512 * t.val + p.val, by have := lt16 t; have := p.isLt; omega⟩ : Fin 8192) l) := by
  show V c main_arg1 (((cfg0.win 0).blk t).view.emb (ix2 p l)) = _
  refine congrArg (V c main_arg1) (funext fun a => Fin.ext ?_)
  obtain ⟨e0, e1, -⟩ := idx_facts t
  match a with
  | ⟨0, _⟩ => show win0_0.index t (0 : Fin 2) * 512 + 1 * p.val = 512 * t.val + p.val; omega
  | ⟨1, _⟩ => show win0_0.index t (1 : Fin 2) * 8192 + 1 * l.val = l.val; omega

/-- The signal's block at any point is the whole signal. -/
theorem sigBlock (c : Dev nD) (t : Fin cfg0.N) (l : Fin 8192) (q : Fin 64) :
    iblk0 V c 1 t (ix2 l q) = V c main_v2 (ix2 l q) := by
  show V c main_v2 (((cfg0.win 1).blk t).view.emb (ix2 l q)) = _
  refine congrArg (V c main_v2) (funext fun a => Fin.ext ?_)
  obtain ⟨-, -, e0, e1, -⟩ := idx_facts t
  match a with
  | ⟨0, _⟩ => show win0_1.index t (0 : Fin 2) * 8192 + 1 * l.val = l.val; omega
  | ⟨1, _⟩ => show win0_1.index t (1 : Fin 2) * 64 + 1 * q.val = q.val; omega

/-- WHAT POINT t WRITES BACK to the product's window: row block t of the product of the arrays found. -/
theorem flushed_prod (c : Dev nD) (t : Fin cfg0.N) :
    (dat0 V c).flushed 2 t = ((cfg0.win 2).blk t).view.read (Elt Ideal) (prod (V c main_arg1) (V c main_v2)) := by
  show (cfg0.win 2).cut (grid0.coords t) ((dat0 V c).after 2 t) = _
  rw [after0_2]
  unfold out0_2
  rw [View.canon_unit_zero hz]
  simp only [View.ld_unit_zero (S := S512x8192) hz, View.ld_unit_zero (S := S8192x64) hz]
  funext j
  obtain ⟨p, q, rfl⟩ : ∃ (p : Fin 512) (q : Fin 64), j = ix2 p q := ⟨j 0, j 1, eq_ix2 j⟩
  show k0_pay2 (iblk0 V c 0 t) (iblk0 V c 1 t) (ix2 p q) = prod (V c main_arg1) (V c main_v2) (((cfg0.win 2).blk t).view.emb (ix2 p q))
  refine (pass1_prod (iblk0 V c 0 t) (iblk0 V c 1 t) p q).trans ?_
  have he : ((cfg0.win 2).blk t).view.emb (ix2 p q)
      = ix2 (⟨512 * t.val + p.val, by have := lt16 t; have := p.isLt; omega⟩ : Fin 8192) q := by
    funext a; apply Fin.ext
    obtain ⟨-, -, -, -, e0, e1, -⟩ := idx_facts t
    match a with
    | ⟨0, _⟩ => show win0_2.index t (0 : Fin 2) * 512 + 1 * p.val = 512 * t.val + p.val; omega
    | ⟨1, _⟩ => show win0_2.index t (1 : Fin 2) * 64 + 1 * q.val = q.val; omega
  rw [he]
  unfold prod
  rw [mm_ix2]
  unfold entry
  exact Finset.sum_congr rfl fun l _ => by rw [opBlock V c t p l, sigBlock V c t l q]

/-- WHAT POINT t WRITES BACK to the operator copy's window: row block t of the operator found. -/
theorem flushed_copy (c : Dev nD) (t : Fin cfg0.N) :
    (dat0 V c).flushed 3 t = ((cfg0.win 3).blk t).view.read (Elt Ideal) (fun i => V c main_arg1 i) := by
  show (cfg0.win 3).cut (grid0.coords t) ((dat0 V c).after 3 t) = _
  rw [after0_3]
  unfold out0_3
  rw [View.canon_unit_zero hz]
  simp only [View.ld_unit_zero (S := S512x8192) hz]
  funext j
  obtain ⟨p, l, rfl⟩ : ∃ (p : Fin 512) (l : Fin 8192), j = ix2 p l := ⟨j 0, j 1, eq_ix2 j⟩
  show k0_pay1 (iblk0 V c 0 t) (ix2 p l) = V c main_arg1 (((cfg0.win 3).blk t).view.emb (ix2 p l))
  refine (pass1_copy (iblk0 V c 0 t) (ix2 p l)).trans ?_
  rw [opBlock V c t p l]
  refine congrArg (V c main_arg1) (funext fun a => Fin.ext ?_)
  obtain ⟨-, -, -, -, -, -, e0, e1⟩ := idx_facts t
  match a with
  | ⟨0, _⟩ => show 512 * t.val + p.val = win0_3.index t (0 : Fin 2) * 512 + 1 * p.val; omega
  | ⟨1, _⟩ => show l.val = win0_3.index t (1 : Fin 2) * 8192 + 1 * l.val; omega

/-- An index of the product's array is in point t's block iff each coordinate is in the block's range on its axis. -/
theorem mem_blk_prod (t : Fin cfg0.N) (i : S8192x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v7_0).slice (win0_2.rect t)).set ↔ _
  rw [View.set_slice_whole, Rect.mem_set_unit]
  exact Iff.rfl

theorem mem_blk_copy (t : Fin cfg0.N) (i : S8192x8192.Idx) :
    i ∈ ((cfg0.win 3).blk t).view.set ↔ ∀ a : Fin 2, win0_3.index t a * S512x8192.size a ≤ (i a).val ∧ (i a).val < win0_3.index t a * S512x8192.size a + S512x8192.size a := by
  show i ∈ ((View.whole main_v7_1).slice (win0_3.rect t)).set ↔ _
  rw [View.set_slice_whole, Rect.mem_set_unit]
  exact Iff.rfl

/-- The point whose row block holds row n. -/
def pointOf (n : ℕ) (h : n < 8192) : Fin cfg0.N := ⟨n / 512, by show n / 512 < grid0.N; rw [N_0]; omega⟩

/-- Every index of the product's array is in some point's block: row n is in row block n / 512. -/
theorem cover_prod (i : S8192x64.Idx) : ∃ t : Fin cfg0.N, (cfg0.win 2).flush t = true ∧ i ∈ ((cfg0.win 2).blk t).view.set := by
  have h0 : (i 0).val < 8192 := (i 0).isLt
  have h1 : (i 1).val < 64 := (i 1).isLt
  refine ⟨pointOf (i 0).val h0, flush0_2 _, ?_⟩
  rw [mem_blk_prod]
  obtain ⟨-, -, -, -, e0, e1, -⟩ := idx_facts (pointOf (i 0).val h0)
  have ev : (pointOf (i 0).val h0).val = (i 0).val / 512 := rfl
  intro a
  match a with
  | ⟨0, _⟩ => show win0_2.index (pointOf (i 0).val h0) (0 : Fin 2) * 512 ≤ (i 0).val ∧ (i 0).val < win0_2.index (pointOf (i 0).val h0) (0 : Fin 2) * 512 + 512; omega
  | ⟨1, _⟩ => show win0_2.index (pointOf (i 0).val h0) (1 : Fin 2) * 64 ≤ (i 1).val ∧ (i 1).val < win0_2.index (pointOf (i 0).val h0) (1 : Fin 2) * 64 + 64; omega

theorem cover_copy (i : S8192x8192.Idx) : ∃ t : Fin cfg0.N, (cfg0.win 3).flush t = true ∧ i ∈ ((cfg0.win 3).blk t).view.set := by
  have h0 : (i 0).val < 8192 := (i 0).isLt
  have h1 : (i 1).val < 8192 := (i 1).isLt
  refine ⟨pointOf (i 0).val h0, flush0_3 _, ?_⟩
  rw [mem_blk_copy]
  obtain ⟨-, -, -, -, -, -, e0, e1⟩ := idx_facts (pointOf (i 0).val h0)
  have ev : (pointOf (i 0).val h0).val = (i 0).val / 512 := rfl
  intro a
  match a with
  | ⟨0, _⟩ => show win0_3.index (pointOf (i 0).val h0) (0 : Fin 2) * 512 ≤ (i 0).val ∧ (i 0).val < win0_3.index (pointOf (i 0).val h0) (0 : Fin 2) * 512 + 512; omega
  | ⟨1, _⟩ => show win0_3.index (pointOf (i 0).val h0) (1 : Fin 2) * 8192 ≤ (i 1).val ∧ (i 1).val < win0_3.index (pointOf (i 0).val h0) (1 : Fin 2) * 8192 + 8192; omega

/-- THE PRODUCT'S ARRAY after pass 1: (operator found) · (signal found). -/
theorem final_prod (c : Dev nD) : (dat0 V c).arrAt 2 cfg0.N = prod (V c main_arg1) (V c main_v2) :=
  (dat0 V c).arrAt_eq_of_cover 2 _ (fun t _ => flushed_prod V c t) cover_prod

/-- THE OPERATOR COPY'S ARRAY after pass 1: the operator found, entry by entry. -/
theorem final_copy (c : Dev nD) : (dat0 V c).arrAt 3 cfg0.N = fun i => V c main_arg1 i :=
  (dat0 V c).arrAt_eq_of_cover 3 _ (fun t _ => flushed_copy V c t) cover_copy

end Cert.KernelIdeal.Pass1

end
-- ==== Proof.Pass2.lean ====
/-
  Pass 2 over its whole grid: what its output array holds after the run, as a function of the arrays it found.

  At point t the operator copy's window, the earlier signal's window and the output window sit at row block t; the
  later signal's window is its whole array.  The body stores 2 · (operator block · later signal) − earlier block.
  So the output array is one step of the recurrence applied to the arrays found, row block by row block, and the
  16 row blocks fill it.
-/
import proofs.«164922_g21182778704682_cont_8to1_185_7_alg».proof.Proof.Gen.KernelIdeal.Frame
import proofs.«164922_g21182778704682_cont_8to1_185_7_alg».proof.Proof.Bodies

set_option maxRecDepth 16384

noncomputable section

open scoped BigOperators

namespace Cert.KernelIdeal.Pass2

open Cert.KernelIdeal Cert.KernelIdeal.Gen Cert.KernelIdeal.Bodies Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window sits at point t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt16 (t : Fin cfg1.N) : t.val < 16 := lt_of_lt_of_eq t.isLt N_1

/-- Row 512 t + p of an 8192-row array. -/
def rowAt (t : Fin cfg1.N) (p : Fin 512) : Fin 8192 := ⟨512 * t.val + p.val, by have := lt16 t; have := p.isLt; omega⟩

theorem opBlock (c : Dev nD) (t : Fin cfg1.N) (p : Fin 512) (l : Fin 8192) :
    iblk1 V c 0 t (ix2 p l) = V c main_v7_1 (ix2 (rowAt t p) l) := by
  show V c main_v7_1 (((cfg1.win 0).blk t).view.emb (ix2 p l)) = _
  refine congrArg (V c main_v7_1) (funext fun a => Fin.ext ?_)
  obtain ⟨e0, e1, -⟩ := idx_facts t
  match a with
  | ⟨0, _⟩ => show win1_0.index t (0 : Fin 2) * 512 + 1 * p.val = 512 * t.val + p.val; omega
  | ⟨1, _⟩ => show win1_0.index t (1 : Fin 2) * 8192 + 1 * l.val = l.val; omega

theorem laterBlock (c : Dev nD) (t : Fin cfg1.N) (l : Fin 8192) (q : Fin 64) :
    iblk1 V c 1 t (ix2 l q) = V c main_v7_0 (ix2 l q) := by
  show V c main_v7_0 (((cfg1.win 1).blk t).view.emb (ix2 l q)) = _
  refine congrArg (V c main_v7_0) (funext fun a => Fin.ext ?_)
  obtain ⟨-, -, e0, e1, -⟩ := idx_facts t
  match a with
  | ⟨0, _⟩ => show win1_1.index t (0 : Fin 2) * 8192 + 1 * l.val = l.val; omega
  | ⟨1, _⟩ => show win1_1.index t (1 : Fin 2) * 64 + 1 * q.val = q.val; omega

theorem earlierBlock (c : Dev nD) (t : Fin cfg1.N) (p : Fin 512) (q : Fin 64) :
    iblk1 V c 2 t (ix2 p q) = V c main_v1 (ix2 (rowAt t p) q) := by
  show V c main_v1 (((cfg1.win 2).blk t).view.emb (ix2 p q)) = _
  refine congrArg (V c main_v1) (funext fun a => Fin.ext ?_)
  obtain ⟨-, -, -, -, e0, e1, -⟩ := idx_facts t
  match a with
  | ⟨0, _⟩ => show win1_2.index t (0 : Fin 2) * 512 + 1 * p.val = 512 * t.val + p.val; omega
  | ⟨1, _⟩ => show win1_2.index t (1 : Fin 2) * 64 + 1 * q.val = q.val; omega

/-- WHAT POINT t WRITES BACK: row block t of one step of the recurrence on the arrays found. -/
theorem flushed_step (c : Dev nD) (t : Fin cfg1.N) :
    (dat1 V c).flushed 3 t
      = ((cfg1.win 3).blk t).view.read (Elt Ideal) (ChebLayer.step (fun i => V c main_v7_1 i) (fun i => V c main_v7_0 i) (fun i => V c main_v1 i)) := by
  show (cfg1.win 3).cut (grid1.coords t) ((dat1 V c).after 3 t) = _
  rw [after1_3]
  unfold out1_3
  rw [View.canon_unit_zero hz]
  simp only [View.ld_unit_zero (S := S512x8192) hz, View.ld_unit_zero (S := S8192x64) hz, View.ld_unit_zero (S := S512x64) hz]
  funext j
  obtain ⟨p, q, rfl⟩ : ∃ (p : Fin 512) (q : Fin 64), j = ix2 p q := ⟨j 0, j 1, eq_ix2 j⟩
  show k1_pay1 (iblk1 V c 0 t) (iblk1 V c 1 t) (iblk1 V c 2 t) (ix2 p q)
    = ChebLayer.step (fun i => V c main_v7_1 i) (fun i => V c main_v7_0 i) (fun i => V c main_v1 i) (((cfg1.win 3).blk t).view.emb (ix2 p q))
  refine (pass2_step (iblk1 V c 0 t) (iblk1 V c 1 t) (iblk1 V c 2 t) p q).trans ?_
  have he : ((cfg1.win 3).blk t).view.emb (ix2 p q) = ix2 (rowAt t p) q := by
    funext a; apply Fin.ext
    obtain ⟨-, -, -, -, -, -, e0, e1⟩ := idx_facts t
    match a with
    | ⟨0, _⟩ => show win1_3.index t (0 : Fin 2) * 512 + 1 * p.val = 512 * t.val + p.val; omega
    | ⟨1, _⟩ => show win1_3.index t (1 : Fin 2) * 64 + 1 * q.val = q.val; omega
  rw [he]
  unfold ChebLayer.step
  rw [mm_ix2, earlierBlock V c t p q]
  unfold entry
  exact congrArg (fun s => ChebLayer.two * s - V c main_v1 (ix2 (rowAt t p) q))
    (Finset.sum_congr rfl fun l _ => by rw [opBlock V c t p l, laterBlock V c t l q])

theorem mem_blk (t : Fin cfg1.N) (i : S8192x64.Idx) :
    i ∈ ((cfg1.win 3).blk t).view.set ↔ ∀ a : Fin 2, win1_3.index t a * S512x64.size a ≤ (i a).val ∧ (i a).val < win1_3.index t a * S512x64.size a + S512x64.size a := by
  show i ∈ ((View.whole main_v8).slice (win1_3.rect t)).set ↔ _
  rw [View.set_slice_whole, Rect.mem_set_unit]
  exact Iff.rfl

def pointOf (n : ℕ) (h : n < 8192) : Fin cfg1.N := ⟨n / 512, by show n / 512 < grid1.N; rw [N_1]; omega⟩

theorem cover (i : S8192x64.Idx) : ∃ t : Fin cfg1.N, (cfg1.win 3).flush t = true ∧ i ∈ ((cfg1.win 3).blk t).view.set := by
  have h0 : (i 0).val < 8192 := (i 0).isLt
  have h1 : (i 1).val < 64 := (i 1).isLt
  refine ⟨pointOf (i 0).val h0, flush1_3 _, ?_⟩
  rw [mem_blk]
  obtain ⟨-, -, -, -, -, -, e0, e1⟩ := idx_facts (pointOf (i 0).val h0)
  have ev : (pointOf (i 0).val h0).val = (i 0).val / 512 := rfl
  intro a
  match a with
  | ⟨0, _⟩ => show win1_3.index (pointOf (i 0).val h0) (0 : Fin 2) * 512 ≤ (i 0).val ∧ (i 0).val < win1_3.index (pointOf (i 0).val h0) (0 : Fin 2) * 512 + 512; omega
  | ⟨1, _⟩ => show win1_3.index (pointOf (i 0).val h0) (1 : Fin 2) * 64 ≤ (i 1).val ∧ (i 1).val < win1_3.index (pointOf (i 0).val h0) (1 : Fin 2) * 64 + 64; omega

/-- THE OUTPUT ARRAY after pass 2: one step of the recurrence on the arrays found. -/
theorem final_step (c : Dev nD) :
    (dat1 V c).arrAt 3 cfg1.N = ChebLayer.step (fun i => V c main_v7_1 i) (fun i => V c main_v7_0 i) (fun i => V c main_v1 i) :=
  (dat1 V c).arrAt_eq_of_cover 3 _ (fun t _ => flushed_step V c t) cover

end Cert.KernelIdeal.Pass2

end
-- ==== Proof.Parts.lean ====
/-
  The layer's last stage in general form: the four products added in order, the bias added and the result cut below
  at zero, over ANY four left matrices, four right matrices and bias row.  The layer of the specification is this
  stage at the recurrence's four matrices, the weight's four degrees and the bias array's row.
-/
import proofs.«164922_g21182778704682_cont_8to1_185_7_alg».proof.Proof.Spec

noncomputable section

namespace ChebLayer

open Idealize.ShloMosaic Idealize.ShloMosaic.ValueIdx MatProd

/-- Four products added in order. -/
def combOf (Y0 Y1 Y2 Y3 : Mat 8192 64) (W0 W1 W2 W3 : Mat 64 64) : Mat 8192 64 :=
  fun i => mm Y0 W0 i + mm Y1 W1 i + mm Y2 W2 i + mm Y3 W3 i

/-- A bias row added along the rows, cut below at zero. -/
def actOf (C : Mat 8192 64) (bias : Fin 64 → EReal) : Mat 8192 64 :=
  fun i => max (C i + bias (⟨(i 1).val, idx2_lt1 i⟩ : Fin 64)) (Ideal.ofBits .f32 0x00000000#32)

theorem comb_eq (L : Mat 8192 8192) (x : (⟨3, ![1, 8192, 64]⟩ : Shape).Idx → EReal) (W : Mat 256 64) :
    comb L x W = combOf (feat x) (X1 L x) (X2 L x) (X3 L x) (wdeg W 0) (wdeg W 1) (wdeg W 2) (wdeg W 3) := rfl

theorem act_eq (L : Mat 8192 8192) (x : (⟨3, ![1, 8192, 64]⟩ : Shape).Idx → EReal) (W : Mat 256 64)
    (b : (⟨3, ![1, 1, 64]⟩ : Shape).Idx → EReal) :
    act L x W b = actOf (comb L x W) (fun o => b (ix3 (0 : Fin 1) (0 : Fin 1) o)) := rfl

end ChebLayer

end
-- ==== Proof.Pass3.lean ====
/-
  Pass 3 over its whole grid: what its output array holds after the run, as a function of the arrays it found.

  At point t the operator copy's window and the windows of the signal and of its first successor sit at row block
  t (512 rows); the second successor, the weight slabs [4, 64, 64] and the bias row [1, 64] are whole arrays; the
  output window is block t of 256 rows.  The body forms the third successor's row block by one more step of the
  recurrence, reads the second successor's row block t out of its whole array through the row offset 512 t, adds
  the four products with the weight slabs, adds the bias, cuts below at zero and keeps the maximum of each row pair.
  Local row pair r of block t is rows 2 (256 t + r) and 2 (256 t + r) + 1 of the 8192: so the output array is the
  pair maximum of the general last stage over the arrays found, and the 16 blocks fill it.
-/
import proofs.«164922_g21182778704682_cont_8to1_185_7_alg».proof.Proof.Gen.KernelIdeal.Frame
import proofs.«164922_g21182778704682_cont_8to1_185_7_alg».proof.Proof.Bodies
import proofs.«164922_g21182778704682_cont_8to1_185_7_alg».proof.Proof.Parts

set_option maxRecDepth 16384

noncomputable section

open scoped BigOperators

namespace Cert.KernelIdeal.Pass3

open Cert.KernelIdeal Cert.KernelIdeal.Gen Cert.KernelIdeal.Bodies Idealize.ShloMosaic Idealize.ShloMosaic.TcCoe Idealize.ShloMosaic.Tactic Idealize.SL.Sem
open Idealize.ShloMosaic.ValueIdx MatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Where each window sits at point t, and the row offset the body computes there. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = 0 ∧ win2_4.index t (1 : Fin 3) = 0 ∧ win2_4.index t (2 : Fin 3) = 0
    ∧ win2_5.index t (0 : Fin 2) = 0 ∧ win2_5.index t (1 : Fin 2) = 0
    ∧ win2_6.index t (0 : Fin 2) = t.val ∧ win2_6.index t (1 : Fin 2) = 0
    ∧ k2_off1 (grid2.coords t) (0 : Fin 2) = 512 * t.val ∧ k2_off1 (grid2.coords t) (1 : Fin 2) = 0 :=
  (by decide +kernel : ∀ t : Fin grid2.N, _)

theorem lt16 (t : Fin cfg2.N) : t.val < 16 := lt_of_lt_of_eq t.isLt N_2

/-- Row 512 t + p of an 8192-row array. -/
def rowAt (t : Fin cfg2.N) (p : Fin 512) : Fin 8192 := ⟨512 * t.val + p.val, by have := lt16 t; have := p.isLt; omega⟩
/-- Row 256 t + r of a 4096-row array. -/
def outRow (t : Fin cfg2.N) (r : Fin 256) : Fin 4096 := ⟨256 * t.val + r.val, by have := lt16 t; have := r.isLt; omega⟩

/-! ## The blocks read off the arrays found -/

theorem opBlock (c : Dev nD) (t : Fin cfg2.N) (p : Fin 512) (l : Fin 8192) :
    iblk2 V c 0 t (ix2 p l) = V c main_v7_1 (ix2 (rowAt t p) l) := by
  show V c main_v7_1 (((cfg2.win 0).blk t).view.emb (ix2 p l)) = _
  refine congrArg (V c main_v7_1) (funext fun a => Fin.ext ?_)
  obtain ⟨e0, e1, -⟩ := idx_facts t
  match a with
  | ⟨0, _⟩ => show win2_0.index t (0 : Fin 2) * 512 + 1 * p.val = 512 * t.val + p.val; omega
  | ⟨1, _⟩ => show win2_0.index t (1 : Fin 2) * 8192 + 1 * l.val = l.val; omega

theorem secondWhole (c : Dev nD) (t : Fin cfg2.N) (l : Fin 8192) (q : Fin 64) :
    iblk2 V c 1 t (ix2 l q) = V c main_v8 (ix2 l q) := by
  show V c main_v8 (((cfg2.win 1).blk t).view.emb (ix2 l q)) = _
  refine congrArg (V c main_v8) (funext fun a => Fin.ext ?_)
  obtain ⟨-, -, e0, e1, -⟩ := idx_facts t
  match a with
  | ⟨0, _⟩ => show win2_1.index t (0 : Fin 2) * 8192 + 1 * l.val = l.val; omega
  | ⟨1, _⟩ => show win2_1.index t (1 : Fin 2) * 64 + 1 * q.val = q.val; omega

theorem signalBlock (c : Dev nD) (t : Fin cfg2.N) (p : Fin 512) (q : Fin 64) :
    iblk2 V c 2 t (ix2 p q) = V c main_v1 (ix2 (rowAt t p) q) := by
  show V c main_v1 (((cfg2.win 2).blk t).view.emb (ix2 p q)) = _
  refine congrArg (V c main_v1) (funext fun a => Fin.ext ?_)
  obtain ⟨-, -, -, -, e0, e1, -⟩ := idx_facts t
  match a with
  | ⟨0, _⟩ => show win2_2.index t (0 : Fin 2) * 512 + 1 * p.val = 512 * t.val + p.val; omega
  | ⟨1, _⟩ => show win2_2.index t (1 : Fin 2) * 64 + 1 * q.val = q.val; omega

theorem firstBlock (c : Dev nD) (t : Fin cfg2.N) (p : Fin 512) (q : Fin 64) :
    iblk2 V c 3 t (ix2 p q) = V c main_v7_0 (ix2 (rowAt t p) q) := by
  show V c main_v7_0 (((cfg2.win 3).blk t).view.emb (ix2 p q)) = _
  refine congrArg (V c main_v7_0) (funext fun a => Fin.ext ?_)
  obtain ⟨-, -, -, -, -, -, e0, e1, -⟩ := idx_facts t
  match a with
  | ⟨0, _⟩ => show win2_3.index t (0 : Fin 2) * 512 + 1 * p.val = 512 * t.val + p.val; omega
  | ⟨1, _⟩ => show win2_3.index t (1 : Fin 2) * 64 + 1 * q.val = q.val; omega

theorem slabsWhole (c : Dev nD) (t : Fin cfg2.N) (d : Fin 4) (f o : Fin 64) :
    iblk2 V c 4 t (ix3 d f o) = V c main_v5 (ix3 d f o) := by
  show V c main_v5 (((cfg2.win 4).blk t).view.emb (ix3 d f o)) = _
  refine congrArg (V c main_v5) (funext fun a => Fin.ext ?_)
  obtain ⟨-, -, -, -, -, -, -, -, e0, e1, e2, -⟩ := idx_facts t
  match a with
  | ⟨0, _⟩ => show win2_4.index t (0 : Fin 3) * 4 + 1 * d.val = d.val; omega
  | ⟨1, _⟩ => show win2_4.index t (1 : Fin 3) * 64 + 1 * f.val = f.val; omega
  | ⟨2, _⟩ => show win2_4.index t (2 : Fin 3) * 64 + 1 * o.val = o.val; omega

theorem biasWhole (c : Dev nD) (t : Fin cfg2.N) (u : Fin 1) (o : Fin 64) :
    iblk2 V c 5 t (ix2 u o) = V c main_v6 (ix2 u o) := by
  show V c main_v6 (((cfg2.win 5).blk t).view.emb (ix2 u o)) = _
  refine congrArg (V c main_v6) (funext fun a => Fin.ext ?_)
  obtain ⟨-, -, -, -, -, -, -, -, -, -, -, e0, e1, -⟩ := idx_facts t
  match a with
  | ⟨0, _⟩ => show win2_5.index t (0 : Fin 2) * 1 + 1 * u.val = u.val; omega
  | ⟨1, _⟩ => show win2_5.index t (1 : Fin 2) * 64 + 1 * o.val = o.val; omega

/-! ## What the body's one store leaves, over any staged contents -/

/-- The store's payload over the contents found in the staging buffers: the pair maximum's arguments are the partial
    combination (from the signal's, the first successor's and — through the computed row offset — the second
    successor's blocks and the slabs of degrees 0, 1, 2), the third successor's block, the slab of degree 3, the bias row. -/
theorem found (c : Dev nD) (i : grid2.Coords) (arg1 : Memref sig .tc .vmem S512x8192 .bf16) (harg1 : arg1.IsWhole) (arg2 : Memref sig .tc .vmem S8192x64 .bf16) (harg2 : arg2.IsWhole) (arg3 : Memref sig .tc .vmem S512x64 .f32) (harg3 : arg3.IsWhole) (arg4 : Memref sig .tc .vmem S512x64 .bf16) (harg4 : arg4.IsWhole) (arg5 : Memref sig .tc .vmem S4x64x64 .bf16) (harg5 : arg5.IsWhole) (arg6 : Memref sig .tc .vmem S1x64 .f32) (harg6 : arg6.IsWhole) (arg7 : Memref sig .tc .vmem S256x64 .f32) (harg7 : arg7.IsWhole)
    (x0 : Vec Ideal S512x8192 .bf16) (x1 : Vec Ideal S8192x64 .bf16) (x2 : Vec Ideal S512x64 .f32) (x3 : Vec Ideal S512x64 .bf16) (x4 : Vec Ideal S4x64x64 .bf16) (x5 : Vec Ideal S1x64 .f32) :
    out2_A_6 (F := Ideal) c i arg1 harg1 arg2 harg2 arg3 harg3 arg4 harg4 arg5 harg5 arg6 harg6 arg7 harg7 x0 x1 x2 x3 x4 x5
      = k2_pay1
          (k2_pay2 x2 x3 (View.ld x1 (Rect.unit (s := S8192x64) (k2_off1 i) S512x64.size (k2_off1_inb i)))
            (View.ld x4 (Rect.unit (s := S4x64x64) ![0, 0, 0] S1x64x64.size inb_S4x64x64_S1x64x64_0_0_0))
            (View.ld x4 (Rect.unit (s := S4x64x64) ![1, 0, 0] S1x64x64.size inb_S4x64x64_S1x64x64_1_0_0))
            (View.ld x4 (Rect.unit (s := S4x64x64) ![2, 0, 0] S1x64x64.size inb_S4x64x64_S1x64x64_2_0_0)))
          (k2_pay3 x0 x1 x3) (View.ld x4 (Rect.unit (s := S4x64x64) ![3, 0, 0] S1x64x64.size inb_S4x64x64_S1x64x64_3_0_0)) x5 := by
  unfold out2_A_6
  rw [View.read_writes_eq_canon _ _ _ (cover2_A_6 c i arg1 harg1 arg2 harg2 arg3 harg3 arg4 harg4 arg5 harg5 arg6 harg6 arg7 harg7 x0 x1 x2 x3 x4 x5)]
  unfold kernelRun2_A
  dsimp only
  sl_unfold_words
  rw [View.canon_unit_zero hz]
  simp only [View.readAt_eq_ld, harg1.read_unread, harg2.read_unread, harg3.read_unread, harg4.read_unread, harg5.read_unread, harg6.read_unread,
    View.ld_unit_zero (S := S512x8192) hz, View.ld_unit_zero (S := S8192x64) hz, View.ld_unit_zero (S := S512x64) hz, View.ld_unit_zero (S := S1x64) hz]

/-! ## The loads that are not whole-buffer loads -/

theorem slab0 (c : Dev nD) (t : Fin cfg2.N) (f o : Fin 64) :
    shapeCast S64x64 (View.ld (iblk2 V c 4 t) (Rect.unit (s := S4x64x64) ![0, 0, 0] S1x64x64.size inb_S4x64x64_S1x64x64_0_0_0)) shapeCasts_S1x64x64_S64x64 (ix2 f o)
      = V c main_v5 (ix3 (0 : Fin 4) f o) := by
  refine (slab_apply _ f o).trans ?_
  show iblk2 V c 4 t ((Rect.unit (s := S4x64x64) ![0, 0, 0] S1x64x64.size inb_S4x64x64_S1x64x64_0_0_0).idx (ix3 (0 : Fin 1) f o)) = _
  refine Eq.trans (congrArg (iblk2 V c 4 t) (?_ : _ = ix3 (0 : Fin 4) f o)) (slabsWhole V c t 0 f o)
  funext a; apply Fin.ext
  match a with
  | ⟨0, _⟩ => show 0 + 1 * 0 = 0; rfl
  | ⟨1, _⟩ => show 0 + 1 * f.val = f.val; omega
  | ⟨2, _⟩ => show 0 + 1 * o.val = o.val; omega

theorem slab1 (c : Dev nD) (t : Fin cfg2.N) (f o : Fin 64) :
    shapeCast S64x64 (View.ld (iblk2 V c 4 t) (Rect.unit (s := S4x64x64) ![1, 0, 0] S1x64x64.size inb_S4x64x64_S1x64x64_1_0_0)) shapeCasts_S1x64x64_S64x64 (ix2 f o)
      = V c main_v5 (ix3 (1 : Fin 4) f o) := by
  refine (slab_apply _ f o).trans ?_
  show iblk2 V c 4 t ((Rect.unit (s := S4x64x64) ![1, 0, 0] S1x64x64.size inb_S4x64x64_S1x64x64_1_0_0).idx (ix3 (0 : Fin 1) f o)) = _
  refine Eq.trans (congrArg (iblk2 V c 4 t) (?_ : _ = ix3 (1 : Fin 4) f o)) (slabsWhole V c t 1 f o)
  funext a; apply Fin.ext
  match a with
  | ⟨0, _⟩ => show 1 + 1 * 0 = 1; rfl
  | ⟨1, _⟩ => show 0 + 1 * f.val = f.val; omega
  | ⟨2, _⟩ => show 0 + 1 * o.val = o.val; omega

theorem slab2 (c : Dev nD) (t : Fin cfg2.N) (f o : Fin 64) :
    shapeCast S64x64 (View.ld (iblk2 V c 4 t) (Rect.unit (s := S4x64x64) ![2, 0, 0] S1x64x64.size inb_S4x64x64_S1x64x64_2_0_0)) shapeCasts_S1x64x64_S64x64 (ix2 f o)
      = V c main_v5 (ix3 (2 : Fin 4) f o) := by
  refine (slab_apply _ f o).trans ?_
  show iblk2 V c 4 t ((Rect.unit (s := S4x64x64) ![2, 0, 0] S1x64x64.size inb_S4x64x64_S1x64x64_2_0_0).idx (ix3 (0 : Fin 1) f o)) = _
  refine Eq.trans (congrArg (iblk2 V c 4 t) (?_ : _ = ix3 (2 : Fin 4) f o)) (slabsWhole V c t 2 f o)
  funext a; apply Fin.ext
  match a with
  | ⟨0, _⟩ => show 2 + 1 * 0 = 2; rfl
  | ⟨1, _⟩ => show 0 + 1 * f.val = f.val; omega
  | ⟨2, _⟩ => show 0 + 1 * o.val = o.val; omega

theorem slab3 (c : Dev nD) (t : Fin cfg2.N) (f o : Fin 64) :
    shapeCast S64x64 (View.ld (iblk2 V c 4 t) (Rect.unit (s := S4x64x64) ![3, 0, 0] S1x64x64.size inb_S4x64x64_S1x64x64_3_0_0)) shapeCasts_S1x64x64_S64x64 (ix2 f o)
      = V c main_v5 (ix3 (3 : Fin 4) f o) := by
  refine (slab_apply _ f o).trans ?_
  show iblk2 V c 4 t ((Rect.unit (s := S4x64x64) ![3, 0, 0] S1x64x64.size inb_S4x64x64_S1x64x64_3_0_0).idx (ix3 (0 : Fin 1) f o)) = _
  refine Eq.trans (congrArg (iblk2 V c 4 t) (?_ : _ = ix3 (3 : Fin 4) f o)) (slabsWhole V c t 3 f o)
  funext a; apply Fin.ext
  match a with
  | ⟨0, _⟩ => show 3 + 1 * 0 = 3; rfl
  | ⟨1, _⟩ => show 0 + 1 * f.val = f.val; omega
  | ⟨2, _⟩ => show 0 + 1 * o.val = o.val; omega

/-- The load through the computed row offset reads row block t of the second successor's whole array. -/
theorem secondBlock (c : Dev nD) (t : Fin cfg2.N) (p : Fin 512) (q : Fin 64) :
    View.ld (iblk2 V c 1 t) (Rect.unit (s := S8192x64) (k2_off1 (grid2.coords t)) S512x64.size (k2_off1_inb (grid2.coords t))) (ix2 p q) = V c main_v8 (ix2 (rowAt t p) q) := by
  show iblk2 V c 1 t ((Rect.unit (s := S8192x64) (k2_off1 (grid2.coords t)) S512x64.size (k2_off1_inb (grid2.coords t))).idx (ix2 p q)) = _
  refine Eq.trans (congrArg (iblk2 V c 1 t) (?_ : _ = ix2 (rowAt t p) q)) (secondWhole V c t (rowAt t p) q)
  funext a; apply Fin.ext
  obtain ⟨-, -, -, -, -, -, -, -, -, -, -, -, -, -, -, o0, o1⟩ := idx_facts t
  match a with
  | ⟨0, _⟩ => show k2_off1 (grid2.coords t) (0 : Fin 2) + 1 * p.val = 512 * t.val + p.val; omega
  | ⟨1, _⟩ => show k2_off1 (grid2.coords t) (1 : Fin 2) + 1 * q.val = q.val; omega

/-! ## The output array over the arrays found -/

/-- The weight slab of degree d as a 64 × 64 matrix. -/
def deg (Wk : S4x64x64.Idx → EReal) (d : Fin 4) : ChebLayer.Mat 64 64 :=
  fun i => Wk (ix3 d (⟨(i 0).val, idx2_lt0 i⟩ : Fin 64) (⟨(i 1).val, idx2_lt1 i⟩ : Fin 64))

/-- Pair maxima of the last stage over: the operator A, the second successor Y2, the signal Y0, the first successor
    Y1 (the third successor is one more step from A, Y2, Y1), the weight slabs and the bias row. -/
def pooled (A : S8192x8192.Idx → EReal) (Y2 Y0 Y1 : S8192x64.Idx → EReal) (Wk : S4x64x64.Idx → EReal) (b2 : S1x64.Idx → EReal) :
    S4096x64.Idx → EReal :=
  fun i => ChebLayer.pool (ChebLayer.actOf (ChebLayer.combOf Y0 Y1 Y2 (ChebLayer.step A Y2 Y1) (deg Wk 0) (deg Wk 1) (deg Wk 2) (deg Wk 3))
      (fun o => b2 (ix2 (0 : Fin 1) o))) (⟨(i 0).val, idx2_lt0 i⟩ : Fin 4096) (⟨(i 1).val, idx2_lt1 i⟩ : Fin 64)

/-- The staged partial combination, third successor and degree-3 slab at point t. -/
abbrev partialAt (c : Dev nD) (t : Fin cfg2.N) : FVec Ideal S512x64 .f32 :=
  k2_pay2 (iblk2 V c 2 t) (iblk2 V c 3 t) (View.ld (iblk2 V c 1 t) (Rect.unit (s := S8192x64) (k2_off1 (grid2.coords t)) S512x64.size (k2_off1_inb (grid2.coords t))))
    (View.ld (iblk2 V c 4 t) (Rect.unit (s := S4x64x64) ![0, 0, 0] S1x64x64.size inb_S4x64x64_S1x64x64_0_0_0)) (View.ld (iblk2 V c 4 t) (Rect.unit (s := S4x64x64) ![1, 0, 0] S1x64x64.size inb_S4x64x64_S1x64x64_1_0_0)) (View.ld (iblk2 V c 4 t) (Rect.unit (s := S4x64x64) ![2, 0, 0] S1x64x64.size inb_S4x64x64_S1x64x64_2_0_0))
abbrev thirdAt (c : Dev nD) (t : Fin cfg2.N) : FVec Ideal S512x64 .bf16 := k2_pay3 (iblk2 V c 0 t) (iblk2 V c 1 t) (iblk2 V c 3 t)
abbrev slab3At (c : Dev nD) (t : Fin cfg2.N) : Vec Ideal S1x64x64 .bf16 := View.ld (iblk2 V c 4 t) (Rect.unit (s := S4x64x64) ![3, 0, 0] S1x64x64.size inb_S4x64x64_S1x64x64_3_0_0)

/-- The third successor's block at local (p, f) is one step of the recurrence at row 512 t + p. -/
theorem thirdRow (c : Dev nD) (t : Fin cfg2.N) (p : Fin 512) (f : Fin 64) :
    thirdAt V c t (ix2 p f) = ChebLayer.step (fun i => V c main_v7_1 i) (fun i => V c main_v8 i) (fun i => V c main_v7_0 i) (ix2 (rowAt t p) f) := by
  refine (pass3_step (iblk2 V c 0 t) (iblk2 V c 1 t) (iblk2 V c 3 t) p f).trans ?_
  unfold ChebLayer.step
  rw [mm_ix2, firstBlock V c t p f]
  unfold entry
  exact congrArg (fun s => ChebLayer.two * s - V c main_v7_0 (ix2 (rowAt t p) f))
    (Finset.sum_congr rfl fun l _ => by rw [opBlock V c t p l, secondWhole V c t l f])

theorem prodDeg0 (c : Dev nD) (t : Fin cfg2.N) (p : Fin 512) (o : Fin 64) :
    entry (iblk2 V c 2 t) (shapeCast S64x64 (View.ld (iblk2 V c 4 t) (Rect.unit (s := S4x64x64) ![0, 0, 0] S1x64x64.size inb_S4x64x64_S1x64x64_0_0_0)) shapeCasts_S1x64x64_S64x64) p o
      = mm (fun i => V c main_v1 i) (deg (fun i => V c main_v5 i) 0) (ix2 (rowAt t p) o) := by
  rw [mm_ix2]; unfold entry
  exact Finset.sum_congr rfl fun f _ => by rw [signalBlock V c t p f, slab0 V c t f o]; rfl

theorem prodDeg1 (c : Dev nD) (t : Fin cfg2.N) (p : Fin 512) (o : Fin 64) :
    entry (iblk2 V c 3 t) (shapeCast S64x64 (View.ld (iblk2 V c 4 t) (Rect.unit (s := S4x64x64) ![1, 0, 0] S1x64x64.size inb_S4x64x64_S1x64x64_1_0_0)) shapeCasts_S1x64x64_S64x64) p o
      = mm (fun i => V c main_v7_0 i) (deg (fun i => V c main_v5 i) 1) (ix2 (rowAt t p) o) := by
  rw [mm_ix2]; unfold entry
  exact Finset.sum_congr rfl fun f _ => by rw [firstBlock V c t p f, slab1 V c t f o]; rfl

theorem prodDeg2 (c : Dev nD) (t : Fin cfg2.N) (p : Fin 512) (o : Fin 64) :
    entry (View.ld (iblk2 V c 1 t) (Rect.unit (s := S8192x64) (k2_off1 (grid2.coords t)) S512x64.size (k2_off1_inb (grid2.coords t)))) (shapeCast S64x64 (View.ld (iblk2 V c 4 t) (Rect.unit (s := S4x64x64) ![2, 0, 0] S1x64x64.size inb_S4x64x64_S1x64x64_2_0_0)) shapeCasts_S1x64x64_S64x64) p o
      = mm (fun i => V c main_v8 i) (deg (fun i => V c main_v5 i) 2) (ix2 (rowAt t p) o) := by
  rw [mm_ix2]; unfold entry
  exact Finset.sum_congr rfl fun f _ => by rw [secondBlock V c t p f, slab2 V c t f o]; rfl

theorem prodDeg3 (c : Dev nD) (t : Fin cfg2.N) (p : Fin 512) (o : Fin 64) :
    entry (thirdAt V c t) (shapeCast S64x64 (slab3At V c t) shapeCasts_S1x64x64_S64x64) p o
      = mm (ChebLayer.step (fun i => V c main_v7_1 i) (fun i => V c main_v8 i) (fun i => V c main_v7_0 i)) (deg (fun i => V c main_v5 i) 3) (ix2 (rowAt t p) o) := by
  rw [mm_ix2]; unfold entry
  exact Finset.sum_congr rfl fun f _ => by rw [thirdRow V c t p f, slab3 V c t f o]; rfl

/-- Rows 2 (256 t + r) + p of the 8192 and 512 t + (2 r + p) are the same row. -/
theorem pairRow_eq (t : Fin cfg2.N) (r : Fin 256) (p : Fin 2) : ChebLayer.pairRow (outRow t r) p = rowAt t (row2 r p) :=
  Fin.ext (by show 2 * (256 * t.val + r.val) + p.val = 512 * t.val + (2 * r.val + p.val); omega)

/-- WHAT POINT t WRITES BACK: block t of the pair maxima over the arrays found. -/
theorem flushed_pool (c : Dev nD) (t : Fin cfg2.N) :
    (dat2 V c).flushed 6 t = ((cfg2.win 6).blk t).view.read (Elt Ideal) (pooled (fun i => V c main_v7_1 i) (fun i => V c main_v8 i) (fun i => V c main_v1 i) (fun i => V c main_v7_0 i) (fun i => V c main_v5 i) (fun i => V c main_v6 i)) := by
  show (cfg2.win 6).cut (grid2.coords t) ((dat2 V c).after 6 t) = _
  rw [after2_6]
  unfold outsAt2
  rw [found]
  funext j
  obtain ⟨r, o, rfl⟩ : ∃ (r : Fin 256) (o : Fin 64), j = ix2 r o := ⟨j 0, j 1, eq_ix2 j⟩
  show k2_pay1 (partialAt V c t) (thirdAt V c t) (slab3At V c t) (iblk2 V c 5 t) (ix2 r o)
    = pooled (fun i => V c main_v7_1 i) (fun i => V c main_v8 i) (fun i => V c main_v1 i) (fun i => V c main_v7_0 i) (fun i => V c main_v5 i) (fun i => V c main_v6 i) (((cfg2.win 6).blk t).view.emb (ix2 r o))
  refine (pass3_pool (partialAt V c t) (thirdAt V c t) (slab3At V c t) (iblk2 V c 5 t) r o).trans ?_
  have he : ((cfg2.win 6).blk t).view.emb (ix2 r o) = ix2 (outRow t r) o := by
    funext a; apply Fin.ext
    obtain ⟨-, -, -, -, -, -, -, -, -, -, -, -, -, e0, e1, -⟩ := idx_facts t
    match a with
    | ⟨0, _⟩ => show win2_6.index t (0 : Fin 2) * 256 + 1 * r.val = 256 * t.val + r.val; omega
    | ⟨1, _⟩ => show win2_6.index t (1 : Fin 2) * 64 + 1 * o.val = o.val; omega
  rw [he]
  show _ = ChebLayer.pool (ChebLayer.actOf (ChebLayer.combOf (fun i => V c main_v1 i) (fun i => V c main_v7_0 i) (fun i => V c main_v8 i) (ChebLayer.step (fun i => V c main_v7_1 i) (fun i => V c main_v8 i) (fun i => V c main_v7_0 i))
      (deg (fun i => V c main_v5 i) 0) (deg (fun i => V c main_v5 i) 1) (deg (fun i => V c main_v5 i) 2) (deg (fun i => V c main_v5 i) 3)) (fun o => V c main_v6 (ix2 (0 : Fin 1) o))) (outRow t r) o
  unfold ChebLayer.pool
  refine Finset.fold_congr fun p _ => ?_
  rw [pairRow_eq t r p]
  unfold ChebLayer.actOf ChebLayer.combOf
  refine congrArg (fun s => max s (Ideal.ofBits .f32 0x00000000#32)) (congrArg₂ (· + ·) (congrArg₂ (· + ·) ?_ ?_) ?_)
  · refine (pass3_first3 (iblk2 V c 2 t) (iblk2 V c 3 t) (View.ld (iblk2 V c 1 t) (Rect.unit (s := S8192x64) (k2_off1 (grid2.coords t)) S512x64.size (k2_off1_inb (grid2.coords t))))
      (View.ld (iblk2 V c 4 t) (Rect.unit (s := S4x64x64) ![0, 0, 0] S1x64x64.size inb_S4x64x64_S1x64x64_0_0_0)) (View.ld (iblk2 V c 4 t) (Rect.unit (s := S4x64x64) ![1, 0, 0] S1x64x64.size inb_S4x64x64_S1x64x64_1_0_0)) (View.ld (iblk2 V c 4 t) (Rect.unit (s := S4x64x64) ![2, 0, 0] S1x64x64.size inb_S4x64x64_S1x64x64_2_0_0)) (row2 r p) o).trans ?_
    exact congrArg₂ (· + ·) (congrArg₂ (· + ·) (prodDeg0 V c t (row2 r p) o) (prodDeg1 V c t (row2 r p) o)) (prodDeg2 V c t (row2 r p) o)
  · exact prodDeg3 V c t (row2 r p) o
  · exact biasWhole V c t 0 o

theorem mem_blk (t : Fin cfg2.N) (i : S4096x64.Idx) :
    i ∈ ((cfg2.win 6).blk t).view.set ↔ ∀ a : Fin 2, win2_6.index t a * S256x64.size a ≤ (i a).val ∧ (i a).val < win2_6.index t a * S256x64.size a + S256x64.size a := by
  show i ∈ ((View.whole main_v9).slice (win2_6.rect t)).set ↔ _
  rw [View.set_slice_whole, Rect.mem_set_unit]
  exact Iff.rfl

def pointOf (n : ℕ) (h : n < 4096) : Fin cfg2.N := ⟨n / 256, by show n / 256 < grid2.N; rw [N_2]; omega⟩

theorem cover (i : S4096x64.Idx) : ∃ t : Fin cfg2.N, (cfg2.win 6).flush t = true ∧ i ∈ ((cfg2.win 6).blk t).view.set := by
  have h0 : (i 0).val < 4096 := (i 0).isLt
  have h1 : (i 1).val < 64 := (i 1).isLt
  refine ⟨pointOf (i 0).val h0, flush2_6 _, ?_⟩
  rw [mem_blk]
  obtain ⟨-, -, -, -, -, -, -, -, -, -, -, -, -, e0, e1, -⟩ := idx_facts (pointOf (i 0).val h0)
  have ev : (pointOf (i 0).val h0).val = (i 0).val / 256 := rfl
  intro a
  match a with
  | ⟨0, _⟩ => show win2_6.index (pointOf (i 0).val h0) (0 : Fin 2) * 256 ≤ (i 0).val ∧ (i 0).val < win2_6.index (pointOf (i 0).val h0) (0 : Fin 2) * 256 + 256; omega
  | ⟨1, _⟩ => show win2_6.index (pointOf (i 0).val h0) (1 : Fin 2) * 64 ≤ (i 1).val ∧ (i 1).val < win2_6.index (pointOf (i 0).val h0) (1 : Fin 2) * 64 + 64; omega

/-- THE OUTPUT ARRAY after pass 3: the pair maxima of the last stage over the arrays found. -/
theorem final_pool (c : Dev nD) :
    (dat2 V c).arrAt 6 cfg2.N = pooled (fun i => V c main_v7_1 i) (fun i => V c main_v8 i) (fun i => V c main_v1 i) (fun i => V c main_v7_0 i) (fun i => V c main_v5 i) (fun i => V c main_v6 i) :=
  (dat2 V c).arrAt_eq_of_cover 6 _ (fun t _ => flushed_pool V c t) cover

end Cert.KernelIdeal.Pass3

end
-- ==== Proof.Chain.lean ====
/-
  The three passes chained: the result buffer after the whole run, as a function of the launch memory.

  Between the passes every buffer keeps its contents unless it is an output array of the pass just run; an input
  array of a pass ends as it was found.  So the operator copy and the first successor made by pass 1 reach passes
  2 and 3 unchanged, the second successor made by pass 2 reaches pass 3 unchanged, and the arrays the host prepared
  before pass 1 (the signal as a matrix, the weight slabs, the bias row) reach every pass unchanged.
-/
import proofs.«164922_g21182778704682_cont_8to1_185_7_alg».proof.Proof.Pass1
import proofs.«164922_g21182778704682_cont_8to1_185_7_alg».proof.Proof.Pass2
import proofs.«164922_g21182778704682_cont_8to1_185_7_alg».proof.Proof.Pass3

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx MatProd
open Idealize.ShloMosaic.Pipeline (Dat)

variable (m : (ℓ : Loc nD τ sig) → Buf (Elt Ideal) ℓ) (ρ : Dev nD → PrngReg)

/-! ## After pass 1 -/

theorem copy_after1 (c : Dev nD) : V2 m ρ c main_v7_1 = fun i => V1 m ρ c main_arg1 i :=
  (W2_arr m ρ c 3).trans (Pass1.final_copy (V1 m ρ) c)

theorem first_after1 (c : Dev nD) : V2 m ρ c main_v7_0 = Pass1.prod (V1 m ρ c main_arg1) (V1 m ρ c main_v2) :=
  (W2_arr m ρ c 2).trans (Pass1.final_prod (V1 m ρ) c)

theorem signal_after1 (c : Dev nD) : V2 m ρ c main_v1 = V1 m ρ c main_v1 := W2_of_ne m ρ c main_v1 (by decide)
theorem slabs_after1 (c : Dev nD) : V2 m ρ c main_v5 = V1 m ρ c main_v5 := W2_of_ne m ρ c main_v5 (by decide)
theorem bias_after1 (c : Dev nD) : V2 m ρ c main_v6 = V1 m ρ c main_v6 := W2_of_ne m ρ c main_v6 (by decide)

/-! ## After pass 2 -/

theorem copy_after2 (c : Dev nD) : V3 m ρ c main_v7_1 = V2 m ρ c main_v7_1 :=
  (W3_arr m ρ c 0).trans (((dat1 (V2 m ρ) c).arrAt_in 0 rfl _).trans (A_eq1 (V2 m ρ) c 0))
theorem first_after2 (c : Dev nD) : V3 m ρ c main_v7_0 = V2 m ρ c main_v7_0 :=
  (W3_arr m ρ c 1).trans (((dat1 (V2 m ρ) c).arrAt_in 1 rfl _).trans (A_eq1 (V2 m ρ) c 1))
theorem signal_after2 (c : Dev nD) : V3 m ρ c main_v1 = V2 m ρ c main_v1 :=
  (W3_arr m ρ c 2).trans (((dat1 (V2 m ρ) c).arrAt_in 2 rfl _).trans (A_eq1 (V2 m ρ) c 2))
theorem second_after2 (c : Dev nD) :
    V3 m ρ c main_v8 = ChebLayer.step (fun i => V2 m ρ c main_v7_1 i) (fun i => V2 m ρ c main_v7_0 i) (fun i => V2 m ρ c main_v1 i) :=
  (W3_arr m ρ c 3).trans (Pass2.final_step (V2 m ρ) c)
theorem slabs_after2 (c : Dev nD) : V3 m ρ c main_v5 = V2 m ρ c main_v5 := W3_of_ne m ρ c main_v5 (by decide)
theorem bias_after2 (c : Dev nD) : V3 m ρ c main_v6 = V2 m ρ c main_v6 := W3_of_ne m ρ c main_v6 (by decide)

/-! ## After pass 3 -/

theorem out_after3 (c : Dev nD) :
    V4 m ρ c main_v9 = Pass3.pooled (fun i => V3 m ρ c main_v7_1 i) (fun i => V3 m ρ c main_v8 i) (fun i => V3 m ρ c main_v1 i)
      (fun i => V3 m ρ c main_v7_0 i) (fun i => V3 m ρ c main_v5 i) (fun i => V3 m ρ c main_v6 i) :=
  (W4_arr m ρ c 6).trans (Pass3.final_pool (V3 m ρ) c)

end Cert.KernelIdeal.Chain

end
-- ==== Proof.HostSide.lean ====
/-
  The arrays the host prepares around the three passes, read at an index over the launch memory.

  Before pass 1: the signal [1, 8192, 64] is transposed and reshaped to the matrix (node, feature) and re-formatted
  (the identity here); the weight [256, 64] is reshaped to [64, 4, 64] and transposed to [4, 64, 64], so that slab d
  at (f, o) is the weight's row 4 f + d at column o; the bias [1, 1, 64] is reshaped to a row [1, 64].  After pass 3
  the result [4096, 64] is reshaped to [1, 4096, 64].
-/
import proofs.«164922_g21182778704682_cont_8to1_185_7_alg».proof.Proof.Gen.KernelIdeal.Frame
import proofs.«164922_g21182778704682_cont_8to1_185_7_alg».proof.Proof.Parts
import proofs.«164922_g21182778704682_cont_8to1_185_7_alg».proof.Proof.Pass3
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The operations' terms -/

theorem operator_term (c : Dev nD) : V1 m ρ c main_arg1 = m ((c : Thread nD τ).loc main_arg1) := by
  show StableHlo.after hostOps0 (W0 m ρ c) (Proc.devRef .tc main_arg1) = _
  after_results <;> rfl

theorem signal_term (c : Dev nD) :
    V1 m ρ c main_v1 = shapeCast S8192x64 (transpose S8192x64x1 [1, 2, 0] (m ((c : Thread nD τ).loc main_arg0)) transposes_S1x8192x64_S8192x64x1_1_2_0) shapeCasts_S8192x64x1_S8192x64 := by
  show StableHlo.after hostOps0 (W0 m ρ c) (Proc.devRef .tc main_v1) = _
  after_results <;> rfl

theorem short_term (c : Dev nD) :
    V1 m ρ c main_v2 = truncf (F := Ideal) .bf16 (shapeCast S8192x64 (transpose S8192x64x1 [1, 2, 0] (m ((c : Thread nD τ).loc main_arg0)) transposes_S1x8192x64_S8192x64x1_1_2_0) shapeCasts_S8192x64x1_S8192x64) bitsLt_bf16_f32 := by
  show StableHlo.after hostOps0 (W0 m ρ c) (Proc.devRef .tc main_v2) = _
  after_results <;> rfl

theorem slabs_term (c : Dev nD) :
    V1 m ρ c main_v5 = truncf (F := Ideal) .bf16 (transpose S4x64x64 [1, 0, 2] (shapeCast S64x4x64 (m ((c : Thread nD τ).loc main_arg2)) shapeCasts_S256x64_S64x4x64) transposes_S64x4x64_S4x64x64_1_0_2) bitsLt_bf16_f32 := by
  show StableHlo.after hostOps0 (W0 m ρ c) (Proc.devRef .tc main_v5) = _
  after_results <;> rfl

theorem bias_term (c : Dev nD) :
    V1 m ρ c main_v6 = shapeCast S1x64 (m ((c : Thread nD τ).loc main_arg3)) shapeCasts_S1x1x64_S1x64 := by
  show StableHlo.after hostOps0 (W0 m ρ c) (Proc.devRef .tc main_v6) = _
  after_results <;> rfl

theorem result_term (c : Dev nD) :
    W5 m ρ c (Proc.devRef .tc main_v10) = shapeCast S1x4096x64 (V4 m ρ c main_v9) shapeCasts_S4096x64_S1x4096x64 := by
  show StableHlo.after hostOps3 (W4 m ρ c) (Proc.devRef .tc main_v10) = _
  after_results <;> rfl

/-! ## Read at an index -/

/-- The signal matrix the host prepares is the specification's. -/
theorem signal_feat (c : Dev nD) :
    (fun i => V1 m ρ c main_v1 i) = ChebLayer.feat (fun i => m ((c : Thread nD τ).loc main_arg0) i) := by
  funext i
  obtain ⟨n, f, rfl⟩ : ∃ (n : Fin 8192) (f : Fin 64), i = ix2 n f := ⟨i 0, i 1, eq_ix2 i⟩
  show V1 m ρ c main_v1 (ix2 n f) = _
  rw [signal_term]
  refine (shapeCast_apply _ shapeCasts_S8192x64x1_S8192x64 (ix2 n f) (ix3 n f (0 : Fin 1)) (by
    rw [Shape.rowMajor_val_three, Shape.rowMajor_val_two]
    show (n.val * 64 + f.val) * 1 + 0 = n.val * 64 + f.val
    omega)).trans ?_
  exact transpose_apply [1, 2, 0] _ transposes_S1x8192x64_S8192x64x1_1_2_0 (ix3 n f (0 : Fin 1)) (ix3 (0 : Fin 1) n f) (fun b => match b with
    | ⟨0, _⟩ => rfl
    | ⟨1, _⟩ => rfl
    | ⟨2, _⟩ => rfl)

/-- The re-formatted copy of the signal matrix has the same entries. -/
theorem short_eq (c : Dev nD) : (fun i => V1 m ρ c main_v2 i) = fun i => V1 m ρ c main_v1 i := by
  funext i
  show V1 m ρ c main_v2 i = V1 m ρ c main_v1 i
  rw [short_term, signal_term]
  rfl

/-- Slab d of the array the host prepares is the weight's rows of degree d. -/
theorem slabs_wdeg (c : Dev nD) (d : Fin 4) :
    Pass3.deg (fun i => V1 m ρ c main_v5 i) d = ChebLayer.wdeg (fun i => m ((c : Thread nD τ).loc main_arg2) i) d := by
  funext i
  obtain ⟨f, o, rfl⟩ : ∃ (f : Fin 64) (o : Fin 64), i = ix2 f o := ⟨i 0, i 1, eq_ix2 i⟩
  show V1 m ρ c main_v5 (ix3 d f o) = m ((c : Thread nD τ).loc main_arg2) (ix2 (⟨4 * f.val + d.val, by have := f.isLt; have := d.isLt; omega⟩ : Fin 256) o)
  rw [slabs_term]
  show transpose S4x64x64 [1, 0, 2] (shapeCast S64x4x64 (m ((c : Thread nD τ).loc main_arg2)) shapeCasts_S256x64_S64x4x64) transposes_S64x4x64_S4x64x64_1_0_2 (ix3 d f o) = _
  refine (transpose_apply [1, 0, 2] _ transposes_S64x4x64_S4x64x64_1_0_2 (ix3 d f o) (ix3 f d o) (fun b => match b with
    | ⟨0, _⟩ => rfl
    | ⟨1, _⟩ => rfl
    | ⟨2, _⟩ => rfl)).trans ?_
  exact shapeCast_apply _ shapeCasts_S256x64_S64x4x64 (ix3 f d o) (ix2 (⟨4 * f.val + d.val, by have := f.isLt; have := d.isLt; omega⟩ : Fin 256) o) (by
    rw [Shape.rowMajor_val_three, Shape.rowMajor_val_two]
    show (4 * f.val + d.val) * 64 + o.val = (f.val * 4 + d.val) * 64 + o.val
    omega)

/-- The bias row the host prepares is the bias array's row. -/
theorem bias_row (c : Dev nD) (o : Fin 64) :
    V1 m ρ c main_v6 (ix2 (0 : Fin 1) o) = m ((c : Thread nD τ).loc main_arg3) (ix3 (0 : Fin 1) (0 : Fin 1) o) := by
  rw [bias_term]
  exact shapeCast_apply _ shapeCasts_S1x1x64_S1x64 (ix2 (0 : Fin 1) o) (ix3 (0 : Fin 1) (0 : Fin 1) o) (by
    rw [Shape.rowMajor_val_three, Shape.rowMajor_val_two]
    show (0 * 1 + 0) * 64 + o.val = 0 * 64 + o.val
    omega)

/-- The result buffer at (u, r, o) is pass 3's array at (r, o). -/
theorem result_at (c : Dev nD) (u : Fin 1) (r : Fin 4096) (o : Fin 64) :
    W5 m ρ c (Proc.devRef .tc main_v10) (ix3 u r o) = V4 m ρ c main_v9 (ix2 r o) := by
  rw [result_term]
  exact shapeCast_apply _ shapeCasts_S4096x64_S1x4096x64 (ix3 u r o) (ix2 r o) (by
    have hu : u.val = 0 := by omega
    rw [Shape.rowMajor_val_three, Shape.rowMajor_val_two]
    show r.val * 64 + o.val = (u.val * 4096 + r.val) * 64 + o.val
    rw [hu]; omega)

end Cert.KernelIdeal.HostSide

end
-- ==== Proof.Whole.lean ====
/-
  The kernel program's result, over the launch memory: the layer of the specification.

  Pass 1 finds the operator and the signal matrix and leaves the operator copy and the first successor; pass 2 finds
  those and the signal matrix and leaves the second successor; pass 3 finds all of them, the weight slabs and the
  bias row, forms the third successor and leaves the pair maxima of the last stage; the host reshapes them.  Each
  array found is one of the specification's matrices, so the result is the specification's layer.
-/
import proofs.«164922_g21182778704682_cont_8to1_185_7_alg».proof.Proof.Chain
import proofs.«164922_g21182778704682_cont_8to1_185_7_alg».proof.Proof.HostSide

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx MatProd

variable (m : (ℓ : Loc nD τ sig) → Buf (Elt Ideal) ℓ) (ρ : Dev nD → PrngReg)

/-! ## What passes 2 and 3 find, as the specification's matrices -/

theorem operator2 (c : Dev nD) : (fun i => V2 m ρ c main_v7_1 i) = (fun i => m ((c : Thread nD τ).loc main_arg1) i) :=
  funext fun i => (congrFun (Chain.copy_after1 m ρ c) i).trans (congrFun (HostSide.operator_term m ρ c) i)

theorem signal2 (c : Dev nD) : (fun i => V2 m ρ c main_v1 i) = ChebLayer.feat (fun i => m ((c : Thread nD τ).loc main_arg0) i) :=
  (funext fun i => congrFun (Chain.signal_after1 m ρ c) i).trans (HostSide.signal_feat m ρ c)

theorem first2 (c : Dev nD) : (fun i => V2 m ρ c main_v7_0 i) = ChebLayer.X1 (fun i => m ((c : Thread nD τ).loc main_arg1) i) (fun i => m ((c : Thread nD τ).loc main_arg0) i) := by
  funext i
  refine (congrFun (Chain.first_after1 m ρ c) i).trans ?_
  exact congrArg₂ (fun a b => mm a b i) (HostSide.operator_term m ρ c) ((HostSide.short_eq m ρ c).trans (HostSide.signal_feat m ρ c))

theorem operator3 (c : Dev nD) : (fun i => V3 m ρ c main_v7_1 i) = (fun i => m ((c : Thread nD τ).loc main_arg1) i) :=
  (funext fun i => congrFun (Chain.copy_after2 m ρ c) i).trans (operator2 m ρ c)

theorem signal3 (c : Dev nD) : (fun i => V3 m ρ c main_v1 i) = ChebLayer.feat (fun i => m ((c : Thread nD τ).loc main_arg0) i) :=
  (funext fun i => congrFun (Chain.signal_after2 m ρ c) i).trans (signal2 m ρ c)

theorem first3 (c : Dev nD) : (fun i => V3 m ρ c main_v7_0 i) = ChebLayer.X1 (fun i => m ((c : Thread nD τ).loc main_arg1) i) (fun i => m ((c : Thread nD τ).loc main_arg0) i) :=
  (funext fun i => congrFun (Chain.first_after2 m ρ c) i).trans (first2 m ρ c)

theorem second3 (c : Dev nD) : (fun i => V3 m ρ c main_v8 i) = ChebLayer.X2 (fun i => m ((c : Thread nD τ).loc main_arg1) i) (fun i => m ((c : Thread nD τ).loc main_arg0) i) := by
  refine (funext fun i => congrFun (Chain.second_after2 m ρ c) i).trans ?_
  exact congr (congr (congrArg ChebLayer.step (operator2 m ρ c)) (first2 m ρ c)) (signal2 m ρ c)

theorem slabs3 (c : Dev nD) : (fun i => V3 m ρ c main_v5 i) = fun i => V1 m ρ c main_v5 i :=
  funext fun i => (congrFun (Chain.slabs_after2 m ρ c) i).trans (congrFun (Chain.slabs_after1 m ρ c) i)

theorem bias3 (c : Dev nD) : (fun i => V3 m ρ c main_v6 i) = fun i => V1 m ρ c main_v6 i :=
  funext fun i => (congrFun (Chain.bias_after2 m ρ c) i).trans (congrFun (Chain.bias_after1 m ρ c) i)

/-! ## The result -/

/-- Pass 3's array over what it found is its array over the specification's matrices and the host's slabs and bias row. -/
theorem pooled_eq (c : Dev nD) :
    Pass3.pooled (fun i => V3 m ρ c main_v7_1 i) (fun i => V3 m ρ c main_v8 i) (fun i => V3 m ρ c main_v1 i)
        (fun i => V3 m ρ c main_v7_0 i) (fun i => V3 m ρ c main_v5 i) (fun i => V3 m ρ c main_v6 i)
      = Pass3.pooled (fun i => m ((c : Thread nD τ).loc main_arg1) i) (ChebLayer.X2 (fun i => m ((c : Thread nD τ).loc main_arg1) i) (fun i => m ((c : Thread nD τ).loc main_arg0) i)) (ChebLayer.feat (fun i => m ((c : Thread nD τ).loc main_arg0) i)) (ChebLayer.X1 (fun i => m ((c : Thread nD τ).loc main_arg1) i) (fun i => m ((c : Thread nD τ).loc main_arg0) i))
          (fun i => V1 m ρ c main_v5 i) (fun i => V1 m ρ c main_v6 i) :=
  congr (congr (congr (congr (congr (congrArg Pass3.pooled (operator3 m ρ c)) (second3 m ρ c)) (signal3 m ρ c)) (first3 m ρ c))
    (slabs3 m ρ c)) (bias3 m ρ c)

/-- The last stage over the specification's matrices, the host's slabs and the host's bias row is the specification's. -/
theorem stage_eq (c : Dev nD) :
    ChebLayer.actOf (ChebLayer.combOf (ChebLayer.feat (fun i => m ((c : Thread nD τ).loc main_arg0) i)) (ChebLayer.X1 (fun i => m ((c : Thread nD τ).loc main_arg1) i) (fun i => m ((c : Thread nD τ).loc main_arg0) i)) (ChebLayer.X2 (fun i => m ((c : Thread nD τ).loc main_arg1) i) (fun i => m ((c : Thread nD τ).loc main_arg0) i))
        (ChebLayer.step (fun i => m ((c : Thread nD τ).loc main_arg1) i) (ChebLayer.X2 (fun i => m ((c : Thread nD τ).loc main_arg1) i) (fun i => m ((c : Thread nD τ).loc main_arg0) i)) (ChebLayer.X1 (fun i => m ((c : Thread nD τ).loc main_arg1) i) (fun i => m ((c : Thread nD τ).loc main_arg0) i)))
        (Pass3.deg (fun i => V1 m ρ c main_v5 i) 0) (Pass3.deg (fun i => V1 m ρ c main_v5 i) 1)
        (Pass3.deg (fun i => V1 m ρ c main_v5 i) 2) (Pass3.deg (fun i => V1 m ρ c main_v5 i) 3))
        (fun o => V1 m ρ c main_v6 (ix2 (0 : Fin 1) o))
      = ChebLayer.act (fun i => m ((c : Thread nD τ).loc main_arg1) i) (fun i => m ((c : Thread nD τ).loc main_arg0) i) (fun i => m ((c : Thread nD τ).loc main_arg2) i) (fun i => m ((c : Thread nD τ).loc main_arg3) i) := by
  rw [ChebLayer.act_eq, ChebLayer.comb_eq]
  exact congr (congrArg ChebLayer.actOf (congr (congr (congr (congrArg (ChebLayer.combOf _ _ _ _) (HostSide.slabs_wdeg m ρ c 0))
    (HostSide.slabs_wdeg m ρ c 1)) (HostSide.slabs_wdeg m ρ c 2)) (HostSide.slabs_wdeg m ρ c 3))) (funext fun o => HostSide.bias_row m ρ c o)

/-- THE RESULT BUFFER after the run is the specification's layer of the four launch arrays. -/
theorem result_is_layer (c : Dev nD) :
    W5 m ρ c (Proc.devRef .tc main_v10) = ChebLayer.layer (fun i => m ((c : Thread nD τ).loc main_arg1) i) (fun i => m ((c : Thread nD τ).loc main_arg0) i) (fun i => m ((c : Thread nD τ).loc main_arg2) i) (fun i => m ((c : Thread nD τ).loc main_arg3) i) := by
  funext i
  obtain ⟨u, r, o, rfl⟩ : ∃ (u : Fin 1) (r : Fin 4096) (o : Fin 64), i = ix3 u r o := ⟨i 0, i 1, i 2, eq_ix3 i⟩
  refine (HostSide.result_at m ρ c u r o).trans ?_
  refine (congrFun (Chain.out_after3 m ρ c) (ix2 r o)).trans ?_
  refine (congrFun (pooled_eq m ρ c) (ix2 r o)).trans ?_
  exact congrArg (fun Y => ChebLayer.pool Y r o) (stage_eq m ρ c)

end Cert.KernelIdeal.Whole

end
-- ==== Proof.RefValue.lean ====
/-
  The reference program's result, as a function of its four argument arrays over the extended reals, is the layer.

  Read one operation at a time: the transposed and reshaped signal is the (node, feature) matrix of the signal; the
  three contractions with the operator, with the doubling and the subtractions between them, are the three further
  matrices of the Chebyshev recurrence; the stack of the four matrices on a new leading axis, reshaped, with its
  leading and trailing axes exchanged and its last two axes merged, is the array whose column `4 f + d` at a node is
  matrix `d` at (node, `f`); the contraction of its 256 columns with the weight's 256 rows therefore splits, by the
  degree of the row, into the four products with the weight's rows of each degree; the bias of the output feature is
  added and the result cut below at zero; the 8192 rows are regrouped as 4096 pairs and each pair is reduced by its
  maximum from −∞, which is the fold over the pair's two members.  The float words for 2, 0 and −∞ are kept as the
  words the program writes and are never evaluated.
-/
import proofs.«164922_g21182778704682_cont_8to1_185_7_alg».proof.Proof.Gen.ReferenceIdeal.Read
import proofs.«164922_g21182778704682_cont_8to1_185_7_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx MatProd ChebLayer

/-! ## The recurrence: the signal as a matrix and its three images under the operator -/

/-- The transposed and reshaped signal is the signal read as a (node, feature) matrix. -/
theorem v1_eq (x0 : (⟨S1x8192x64, .f32⟩ : BufTy).Contents (Elt Ideal)) :
    val_main_v1 (F := Ideal) x0 = feat x0 := by
  funext i
  rw [val_main_v1_apply, val_main_v0_apply]
  unfold feat
  refine congrArg x0 (funext fun a => Fin.ext ?_)
  have h0 : (i 0).val < 8192 := (i 0).isLt
  have h1 : (i 1).val < 64 := (i 1).isLt
  match a with
  | ⟨0, _⟩ => rfl
  | ⟨1, _⟩ => show ((i 0).val * 64 + (i 1).val) / 64 = (i 0).val; omega
  | ⟨2, _⟩ => show ((i 0).val * 64 + (i 1).val) / 1 % 64 = (i 1).val; omega

/-- A contraction of the operator's columns against the rows of a (node, feature) array, written through the index
    maps of the reference's first product, is the matrix product. -/
theorem dot2_eq (L : (⟨S8192x8192, .f32⟩ : BufTy).Contents (Elt Ideal)) (y : (⟨S8192x64, .f32⟩ : BufTy).Contents (Elt Ideal))
    (i : S8192x64.Idx) :
    ∑ k : Fin 8192, L (lidx_main_v2 i k) * y (ridx_main_v2 i k) = mm L y i :=
  sum_eq_mm L y i (lidx_main_v2 i) (ridx_main_v2 i)
    (fun l => funext fun a => match a with | ⟨0, _⟩ => rfl | ⟨1, _⟩ => rfl)
    (fun l => funext fun a => match a with | ⟨0, _⟩ => rfl | ⟨1, _⟩ => rfl)

theorem dot3_eq (L : (⟨S8192x8192, .f32⟩ : BufTy).Contents (Elt Ideal)) (y : (⟨S8192x64, .f32⟩ : BufTy).Contents (Elt Ideal))
    (i : S8192x64.Idx) :
    ∑ k : Fin 8192, L (lidx_main_v3 i k) * y (ridx_main_v3 i k) = mm L y i :=
  sum_eq_mm L y i (lidx_main_v3 i) (ridx_main_v3 i)
    (fun l => funext fun a => match a with | ⟨0, _⟩ => rfl | ⟨1, _⟩ => rfl)
    (fun l => funext fun a => match a with | ⟨0, _⟩ => rfl | ⟨1, _⟩ => rfl)

theorem dot7_eq (L : (⟨S8192x8192, .f32⟩ : BufTy).Contents (Elt Ideal)) (y : (⟨S8192x64, .f32⟩ : BufTy).Contents (Elt Ideal))
    (i : S8192x64.Idx) :
    ∑ k : Fin 8192, L (lidx_main_v7 i k) * y (ridx_main_v7 i k) = mm L y i :=
  sum_eq_mm L y i (lidx_main_v7 i) (ridx_main_v7 i)
    (fun l => funext fun a => match a with | ⟨0, _⟩ => rfl | ⟨1, _⟩ => rfl)
    (fun l => funext fun a => match a with | ⟨0, _⟩ => rfl | ⟨1, _⟩ => rfl)

/-- The first product is the operator applied to the signal. -/
theorem v2_eq (x0 : (⟨S1x8192x64, .f32⟩ : BufTy).Contents (Elt Ideal)) (x1 : (⟨S8192x8192, .f32⟩ : BufTy).Contents (Elt Ideal)) :
    val_main_v2 (F := Ideal) x0 x1 = X1 x1 x0 := by
  funext i
  rw [val_main_v2_apply, v1_eq]
  exact dot2_eq x1 (feat x0) i

/-- The second stage is one step of the recurrence from the first product and the signal. -/
theorem v6_eq (x0 : (⟨S1x8192x64, .f32⟩ : BufTy).Contents (Elt Ideal)) (x1 : (⟨S8192x8192, .f32⟩ : BufTy).Contents (Elt Ideal)) :
    val_main_v6 (F := Ideal) x0 x1 = X2 x1 x0 := by
  funext i
  rw [val_main_v6_apply, val_main_v5_apply, val_main_v4_apply, val_main_cst_apply, val_main_v3_apply, v2_eq, v1_eq,
    dot3_eq x1 (X1 x1 x0) i]
  rfl

/-- The third stage is one step of the recurrence from the second stage and the first product. -/
theorem v10_eq (x0 : (⟨S1x8192x64, .f32⟩ : BufTy).Contents (Elt Ideal)) (x1 : (⟨S8192x8192, .f32⟩ : BufTy).Contents (Elt Ideal)) :
    val_main_v10 (F := Ideal) x0 x1 = X3 x1 x0 := by
  funext i
  rw [val_main_v10_apply, val_main_v9_apply, val_main_v8_apply, val_main_cst_0_apply, val_main_v7_apply, v6_eq, v2_eq,
    dot7_eq x1 (X2 x1 x0) i]
  rfl

/-! ## The stack of the four matrices and its re-laying as 256 columns -/

/- A stack of four pieces of one row block each along a new leading axis, read at leading coordinate `k`, is piece
   `k` at the remaining coordinates: one statement per `k`, since the piece is picked out of a literal list. -/

theorem stack4_at0 {α : Type} (y0 y1 y2 y3 : S1x8192x64.Idx → α)
    (h : Shape.Concatenates [S1x8192x64, S1x8192x64, S1x8192x64, S1x8192x64] S4x8192x64 0)
    (j : S4x8192x64.Idx) (hj : (j 0).val = 0) :
    concatenate S4x8192x64 0 [⟨S1x8192x64, y0⟩, ⟨S1x8192x64, y1⟩, ⟨S1x8192x64, y2⟩, ⟨S1x8192x64, y3⟩] h j
      = y0 (ix3 (0 : Fin 1) (⟨(j 1).val, (j 1).isLt⟩ : Fin 8192) (⟨(j 2).val, (j 2).isLt⟩ : Fin 64)) :=
  concatenate_apply_piece (t := S4x8192x64) 0 [⟨S1x8192x64, y0⟩, ⟨S1x8192x64, y1⟩, ⟨S1x8192x64, y2⟩, ⟨S1x8192x64, y3⟩] h j 0 (by show (0 : Nat) < 4; omega) S1x8192x64 y0 rfl rfl 0 rfl
    (ix3 (0 : Fin 1) (⟨(j 1).val, (j 1).isLt⟩ : Fin 8192) (⟨(j 2).val, (j 2).isLt⟩ : Fin 64))
    (fun b => match b with
      | ⟨0, _⟩ => fun hb => absurd rfl hb
      | ⟨1, _⟩ => fun _ => rfl
      | ⟨2, _⟩ => fun _ => rfl)
    (by show 0 + 0 = (j 0).val; omega)

theorem stack4_at1 {α : Type} (y0 y1 y2 y3 : S1x8192x64.Idx → α)
    (h : Shape.Concatenates [S1x8192x64, S1x8192x64, S1x8192x64, S1x8192x64] S4x8192x64 0)
    (j : S4x8192x64.Idx) (hj : (j 0).val = 1) :
    concatenate S4x8192x64 0 [⟨S1x8192x64, y0⟩, ⟨S1x8192x64, y1⟩, ⟨S1x8192x64, y2⟩, ⟨S1x8192x64, y3⟩] h j
      = y1 (ix3 (0 : Fin 1) (⟨(j 1).val, (j 1).isLt⟩ : Fin 8192) (⟨(j 2).val, (j 2).isLt⟩ : Fin 64)) :=
  concatenate_apply_piece (t := S4x8192x64) 0 [⟨S1x8192x64, y0⟩, ⟨S1x8192x64, y1⟩, ⟨S1x8192x64, y2⟩, ⟨S1x8192x64, y3⟩] h j 1 (by show (1 : Nat) < 4; omega) S1x8192x64 y1 rfl rfl 1 rfl
    (ix3 (0 : Fin 1) (⟨(j 1).val, (j 1).isLt⟩ : Fin 8192) (⟨(j 2).val, (j 2).isLt⟩ : Fin 64))
    (fun b => match b with
      | ⟨0, _⟩ => fun hb => absurd rfl hb
      | ⟨1, _⟩ => fun _ => rfl
      | ⟨2, _⟩ => fun _ => rfl)
    (by show 1 + 0 = (j 0).val; omega)

theorem stack4_at2 {α : Type} (y0 y1 y2 y3 : S1x8192x64.Idx → α)
    (h : Shape.Concatenates [S1x8192x64, S1x8192x64, S1x8192x64, S1x8192x64] S4x8192x64 0)
    (j : S4x8192x64.Idx) (hj : (j 0).val = 2) :
    concatenate S4x8192x64 0 [⟨S1x8192x64, y0⟩, ⟨S1x8192x64, y1⟩, ⟨S1x8192x64, y2⟩, ⟨S1x8192x64, y3⟩] h j
      = y2 (ix3 (0 : Fin 1) (⟨(j 1).val, (j 1).isLt⟩ : Fin 8192) (⟨(j 2).val, (j 2).isLt⟩ : Fin 64)) :=
  concatenate_apply_piece (t := S4x8192x64) 0 [⟨S1x8192x64, y0⟩, ⟨S1x8192x64, y1⟩, ⟨S1x8192x64, y2⟩, ⟨S1x8192x64, y3⟩] h j 2 (by show (2 : Nat) < 4; omega) S1x8192x64 y2 rfl rfl 2 rfl
    (ix3 (0 : Fin 1) (⟨(j 1).val, (j 1).isLt⟩ : Fin 8192) (⟨(j 2).val, (j 2).isLt⟩ : Fin 64))
    (fun b => match b with
      | ⟨0, _⟩ => fun hb => absurd rfl hb
      | ⟨1, _⟩ => fun _ => rfl
      | ⟨2, _⟩ => fun _ => rfl)
    (by show 2 + 0 = (j 0).val; omega)

theorem stack4_at3 {α : Type} (y0 y1 y2 y3 : S1x8192x64.Idx → α)
    (h : Shape.Concatenates [S1x8192x64, S1x8192x64, S1x8192x64, S1x8192x64] S4x8192x64 0)
    (j : S4x8192x64.Idx) (hj : (j 0).val = 3) :
    concatenate S4x8192x64 0 [⟨S1x8192x64, y0⟩, ⟨S1x8192x64, y1⟩, ⟨S1x8192x64, y2⟩, ⟨S1x8192x64, y3⟩] h j
      = y3 (ix3 (0 : Fin 1) (⟨(j 1).val, (j 1).isLt⟩ : Fin 8192) (⟨(j 2).val, (j 2).isLt⟩ : Fin 64)) :=
  concatenate_apply_piece (t := S4x8192x64) 0 [⟨S1x8192x64, y0⟩, ⟨S1x8192x64, y1⟩, ⟨S1x8192x64, y2⟩, ⟨S1x8192x64, y3⟩] h j 3 (by show (3 : Nat) < 4; omega) S1x8192x64 y3 rfl rfl 3 rfl
    (ix3 (0 : Fin 1) (⟨(j 1).val, (j 1).isLt⟩ : Fin 8192) (⟨(j 2).val, (j 2).isLt⟩ : Fin 64))
    (fun b => match b with
      | ⟨0, _⟩ => fun hb => absurd rfl hb
      | ⟨1, _⟩ => fun _ => rfl
      | ⟨2, _⟩ => fun _ => rfl)
    (by show 3 + 0 = (j 0).val; omega)

/-- Column `4 f + d` of the 256-column array, at a node, is the stack's entry (d, node, f): the reshape to a trailing
    unit axis, the exchange of the leading and trailing axes and the merge of the last two axes, composed. -/
theorem v18_eq_v15 (x0 : (⟨S1x8192x64, .f32⟩ : BufTy).Contents (Elt Ideal)) (x1 : (⟨S8192x8192, .f32⟩ : BufTy).Contents (Elt Ideal)) (i : S8192x256.Idx) (f : Fin 64) (d : Fin 4) (h1 : (i 1).val = 4 * f.val + d.val) :
    val_main_v18 (F := Ideal) x0 x1 i
      = val_main_v15 (F := Ideal) x0 x1 (ix3 d (⟨(i 0).val, (i 0).isLt⟩ : Fin 8192) f) := by
  rw [val_main_v18_apply, val_main_v17_apply, val_main_v16_apply]
  refine congrArg (val_main_v15 (F := Ideal) x0 x1) (funext fun a => Fin.ext ?_)
  have h0 : (i 0).val < 8192 := (i 0).isLt
  have hf : f.val < 64 := f.isLt
  have hd : d.val < 4 := d.isLt
  have ea0 : ((i 0).val * 256 + (i 1).val) % 4 = d.val := by omega
  have ea1 : ((i 0).val * 256 + (i 1).val) / 256 % 8192 = (i 0).val := by omega
  have ea2 : ((i 0).val * 256 + (i 1).val) / 4 % 64 = f.val := by omega
  match a with
  | ⟨0, _⟩ => show ((((((i 0).val * 256 + (i 1).val) % 4) * 8192 + (((i 0).val * 256 + (i 1).val) / 256 % 8192)) * 64 + (((i 0).val * 256 + (i 1).val) / 4 % 64)) * 1 + 0) / 524288 = d.val; rw [ea0, ea1, ea2]; omega
  | ⟨1, _⟩ => show ((((((i 0).val * 256 + (i 1).val) % 4) * 8192 + (((i 0).val * 256 + (i 1).val) / 256 % 8192)) * 64 + (((i 0).val * 256 + (i 1).val) / 4 % 64)) * 1 + 0) / 64 % 8192 = (i 0).val; rw [ea0, ea1, ea2]; omega
  | ⟨2, _⟩ => show ((((((i 0).val * 256 + (i 1).val) % 4) * 8192 + (((i 0).val * 256 + (i 1).val) / 256 % 8192)) * 64 + (((i 0).val * 256 + (i 1).val) / 4 % 64)) * 1 + 0) % 64 = f.val; rw [ea0, ea1, ea2]; omega

/- The stack's four layers are the signal's matrix and its three images, each read through its broadcast to a
   leading unit axis. -/

theorem v15_at0 (x0 : (⟨S1x8192x64, .f32⟩ : BufTy).Contents (Elt Ideal)) (x1 : (⟨S8192x8192, .f32⟩ : BufTy).Contents (Elt Ideal)) (n : Fin 8192) (f : Fin 64) :
    val_main_v15 (F := Ideal) x0 x1 (ix3 (0 : Fin 4) n f) = feat x0 (ix2 n f) := by
  unfold val_main_v15
  refine (stack4_at0 _ _ _ _ _ _ rfl).trans ?_
  rw [val_main_v11_apply, v1_eq]
  exact congrArg (feat x0) (funext fun a => match a with | ⟨0, _⟩ => rfl | ⟨1, _⟩ => rfl)

theorem v15_at1 (x0 : (⟨S1x8192x64, .f32⟩ : BufTy).Contents (Elt Ideal)) (x1 : (⟨S8192x8192, .f32⟩ : BufTy).Contents (Elt Ideal)) (n : Fin 8192) (f : Fin 64) :
    val_main_v15 (F := Ideal) x0 x1 (ix3 (1 : Fin 4) n f) = X1 x1 x0 (ix2 n f) := by
  unfold val_main_v15
  refine (stack4_at1 _ _ _ _ _ _ rfl).trans ?_
  rw [val_main_v12_apply, v2_eq]
  exact congrArg (X1 x1 x0) (funext fun a => match a with | ⟨0, _⟩ => rfl | ⟨1, _⟩ => rfl)

theorem v15_at2 (x0 : (⟨S1x8192x64, .f32⟩ : BufTy).Contents (Elt Ideal)) (x1 : (⟨S8192x8192, .f32⟩ : BufTy).Contents (Elt Ideal)) (n : Fin 8192) (f : Fin 64) :
    val_main_v15 (F := Ideal) x0 x1 (ix3 (2 : Fin 4) n f) = X2 x1 x0 (ix2 n f) := by
  unfold val_main_v15
  refine (stack4_at2 _ _ _ _ _ _ rfl).trans ?_
  rw [val_main_v13_apply, v6_eq]
  exact congrArg (X2 x1 x0) (funext fun a => match a with | ⟨0, _⟩ => rfl | ⟨1, _⟩ => rfl)

theorem v15_at3 (x0 : (⟨S1x8192x64, .f32⟩ : BufTy).Contents (Elt Ideal)) (x1 : (⟨S8192x8192, .f32⟩ : BufTy).Contents (Elt Ideal)) (n : Fin 8192) (f : Fin 64) :
    val_main_v15 (F := Ideal) x0 x1 (ix3 (3 : Fin 4) n f) = X3 x1 x0 (ix2 n f) := by
  unfold val_main_v15
  refine (stack4_at3 _ _ _ _ _ _ rfl).trans ?_
  rw [val_main_v14_apply, v10_eq]
  exact congrArg (X3 x1 x0) (funext fun a => match a with | ⟨0, _⟩ => rfl | ⟨1, _⟩ => rfl)

/-! ## The combination with the weight -/

/-- The product with the 256-row weight is the sum of the four products with the weight's rows of each degree: the
    256 columns are split by degree, and each degree's 64 columns are one of the four matrices. -/
theorem v19_eq (x0 : (⟨S1x8192x64, .f32⟩ : BufTy).Contents (Elt Ideal)) (x1 : (⟨S8192x8192, .f32⟩ : BufTy).Contents (Elt Ideal)) (x2 : (⟨S256x64, .f32⟩ : BufTy).Contents (Elt Ideal)) :
    val_main_v19 (F := Ideal) x0 x1 x2 = comb x1 x0 x2 := by
  funext i
  have hx : ∀ (f : Fin 64) (d : Fin 4), val_main_v18 (F := Ideal) x0 x1 (lidx_main_v19 i (wrow f d))
      = val_main_v15 (F := Ideal) x0 x1 (ix3 d (⟨(i 0).val, idx2_lt0 i⟩ : Fin 8192) f) :=
    fun f d => v18_eq_v15 x0 x1 _ f d rfl
  have hw : ∀ (f : Fin 64) (d : Fin 4), x2 (ridx_main_v19 i (wrow f d))
      = wdeg x2 d (ix2 f (⟨(i 1).val, idx2_lt1 i⟩ : Fin 64)) := fun f d => by
    unfold wdeg
    exact congrArg x2 (funext fun a => match a with | ⟨0, _⟩ => rfl | ⟨1, _⟩ => rfl)
  have e0 : ∑ f : Fin 64, val_main_v18 (F := Ideal) x0 x1 (lidx_main_v19 i (wrow f 0)) * x2 (ridx_main_v19 i (wrow f 0))
      = mm (feat x0) (wdeg x2 0) i := by
    unfold mm entry
    exact Finset.sum_congr rfl fun f _ => by rw [hx f 0, hw f 0, v15_at0]
  have e1 : ∑ f : Fin 64, val_main_v18 (F := Ideal) x0 x1 (lidx_main_v19 i (wrow f 1)) * x2 (ridx_main_v19 i (wrow f 1))
      = mm (X1 x1 x0) (wdeg x2 1) i := by
    unfold mm entry
    exact Finset.sum_congr rfl fun f _ => by rw [hx f 1, hw f 1, v15_at1]
  have e2 : ∑ f : Fin 64, val_main_v18 (F := Ideal) x0 x1 (lidx_main_v19 i (wrow f 2)) * x2 (ridx_main_v19 i (wrow f 2))
      = mm (X2 x1 x0) (wdeg x2 2) i := by
    unfold mm entry
    exact Finset.sum_congr rfl fun f _ => by rw [hx f 2, hw f 2, v15_at2]
  have e3 : ∑ f : Fin 64, val_main_v18 (F := Ideal) x0 x1 (lidx_main_v19 i (wrow f 3)) * x2 (ridx_main_v19 i (wrow f 3))
      = mm (X3 x1 x0) (wdeg x2 3) i := by
    unfold mm entry
    exact Finset.sum_congr rfl fun f _ => by rw [hx f 3, hw f 3, v15_at3]
  rw [val_main_v19_apply]
  refine (sum_by_degree fun k : Fin 256 => val_main_v18 (F := Ideal) x0 x1 (lidx_main_v19 i k) * x2 (ridx_main_v19 i k)).trans ?_
  rw [e0, e1, e2, e3]
  rfl

/-! ## Bias, the cut at zero, and the pooling of node pairs -/

/-- After the bias is added and the result cut below at zero, the entry at (0, node, feature) is the activation. -/
theorem v23_eq (x0 : (⟨S1x8192x64, .f32⟩ : BufTy).Contents (Elt Ideal)) (x1 : (⟨S8192x8192, .f32⟩ : BufTy).Contents (Elt Ideal)) (x2 : (⟨S256x64, .f32⟩ : BufTy).Contents (Elt Ideal)) (x3 : (⟨S1x1x64, .f32⟩ : BufTy).Contents (Elt Ideal)) (m : Fin 8192) (o : Fin 64) :
    val_main_v23 (F := Ideal) x0 x1 x2 x3 (ix3 (0 : Fin 1) m o) = act x1 x0 x2 x3 (ix2 m o) := by
  have hm : m.val < 8192 := m.isLt
  have ho : o.val < 64 := o.isLt
  have e20 : idx_main_v20 (ix3 (0 : Fin 1) m o) = ix2 m o := funext fun a => Fin.ext (by
    match a with
    | ⟨0, _⟩ => show ((0 * 8192 + m.val) * 64 + o.val) / 64 = m.val; omega
    | ⟨1, _⟩ => show ((0 * 8192 + m.val) * 64 + o.val) % 64 = o.val; omega)
  have e21 : idx_main_v21 (ix3 (0 : Fin 1) m o) = ix3 (0 : Fin 1) (0 : Fin 1) o :=
    funext fun a => match a with | ⟨0, _⟩ => rfl | ⟨1, _⟩ => rfl | ⟨2, _⟩ => rfl
  rw [val_main_v23_apply, val_main_call0_v0_apply, val_main_call0_cst_apply, val_main_v22_apply, val_main_v21_apply,
    val_main_v20_apply, v19_eq, e20, e21]
  rfl

/-- The reshaped activation at the node pair's member `p`: the reduced index with `p` put back on the pooled axis is
    row `2 r + p` of the 8192 rows. -/
theorem v24_lift (x0 : (⟨S1x8192x64, .f32⟩ : BufTy).Contents (Elt Ideal)) (x1 : (⟨S8192x8192, .f32⟩ : BufTy).Contents (Elt Ideal)) (x2 : (⟨S256x64, .f32⟩ : BufTy).Contents (Elt Ideal)) (x3 : (⟨S1x1x64, .f32⟩ : BufTy).Contents (Elt Ideal))
    (hR : S1x4096x2x64.Reduces [2] S1x4096x64) (i : S1x4096x64.Idx) (p : Fin 2) :
    val_main_v24 (F := Ideal) x0 x1 x2 x3 (hR.lift i p)
      = act x1 x0 x2 x3 (ix2 (pairRow (⟨(i 1).val, (i 1).isLt⟩ : Fin 4096) p) (⟨(i 2).val, (i 2).isLt⟩ : Fin 64)) := by
  have h0 : (i 0).val < 1 := (i 0).isLt
  have h1 : (i 1).val < 4096 := (i 1).isLt
  have h2 : (i 2).val < 64 := (i 2).isLt
  have hp : p.val < 2 := p.isLt
  have e24 : idx_main_v24 (hR.lift i p)
      = ix3 (0 : Fin 1) (pairRow (⟨(i 1).val, (i 1).isLt⟩ : Fin 4096) p) (⟨(i 2).val, (i 2).isLt⟩ : Fin 64) :=
    funext fun a => Fin.ext (by
      match a with
      | ⟨0, _⟩ => rfl
      | ⟨1, _⟩ => show ((((i 0).val * 4096 + (i 1).val) * 2 + p.val) * 64 + (i 2).val) / 64 % 8192 = 2 * (i 1).val + p.val; omega
      | ⟨2, _⟩ => show ((((i 0).val * 4096 + (i 1).val) * 2 + p.val) * 64 + (i 2).val) % 64 = (i 2).val; omega)
  rw [val_main_v24_apply, e24, v23_eq]

/-- The maximum-reduce over the pair axis from −∞, at a reduced index, is the fold of `max` from −∞ over the pair's two
    members, each read at the reduced index with the member put back on the pooled axis. -/
theorem reduce_pairs (y : (⟨S1x4096x2x64, .f32⟩ : BufTy).Contents (Elt Ideal))
    (hR : S1x4096x2x64.Reduces [2] S1x4096x64) (i : S1x4096x64.Idx) :
    Host.reduce (FloatOps.maximumf (F := Ideal) (φ := .f32)) y (val_main_cst_1 (F := Ideal)) reducesTo_S1x4096x2x64_S1x4096x64_d2 h_S_ i
      = Finset.fold max (Ideal.ofBits .f32 0xFF800000#32) (fun p : Fin 2 => y (hR.lift i p)) (Finset.univ : Finset (Fin 2)) :=
  Host.reduce_eq_fold_single (FloatOps.maximumf (F := Ideal) (φ := .f32)) y (val_main_cst_1 (F := Ideal))
    reducesTo_S1x4096x2x64_S1x4096x64_d2 hR h_S_ i

/-- **The reference's result is the layer**: the maximum over each node pair, from −∞, of the activation. -/
theorem reference_is_layer
    (x0 : (⟨Cert.ReferenceIdeal.S1x8192x64, .f32⟩ : BufTy).Contents (Elt Ideal)) (x1 : (⟨Cert.ReferenceIdeal.S8192x8192, .f32⟩ : BufTy).Contents (Elt Ideal))
    (x2 : (⟨Cert.ReferenceIdeal.S256x64, .f32⟩ : BufTy).Contents (Elt Ideal)) (x3 : (⟨Cert.ReferenceIdeal.S1x1x64, .f32⟩ : BufTy).Contents (Elt Ideal)) :
    Cert.ReferenceIdeal.Read.val_main_v25 (F := Ideal) x0 x1 x2 x3 = ChebLayer.layer x1 x0 x2 x3 := by
  funext i
  have hR : S1x4096x2x64.Reduces [2] S1x4096x64 := by decide
  have hf : (fun p : Fin 2 => val_main_v24 (F := Ideal) x0 x1 x2 x3 (hR.lift i p))
      = fun p : Fin 2 => act x1 x0 x2 x3 (ix2 (pairRow (⟨(i 1).val, (i 1).isLt⟩ : Fin 4096) p) (⟨(i 2).val, (i 2).isLt⟩ : Fin 64)) :=
    funext fun p => v24_lift x0 x1 x2 x3 hR i p
  unfold val_main_v25
  refine (reduce_pairs (val_main_v24 (F := Ideal) x0 x1 x2 x3) hR i).trans ?_
  unfold ChebLayer.layer ChebLayer.pool
  exact congrArg (fun g => Finset.fold max (Ideal.ofBits .f32 0xFF800000#32) g (Finset.univ : Finset (Fin 2))) hf

end Cert.ReferenceIdeal.RefValue

end
-- ==== Proof.lean ====
/-
  A degree-4 Chebyshev graph layer in three passes over the operator, against one host program: equal results on the
  extended reals.

  Both programs read the signal x (one batch entry, 8192 nodes, 64 features) as a matrix X0 (node, feature), form
  X1 = L · X0, X2 = 2 · (L · X1) − X0, X3 = 2 · (L · X2) − X1 with the operator L (8192 × 8192), combine them with the
  weight W (256 × 64, row 4 f + d for feature f and degree d), add the bias, cut below at zero and pool node pairs by
  their maximum.  They differ in the arrangement only.  The three-pass program computes X1, X2, X3 row block by row
  block (16 blocks of 512 rows), carries the operator and the successors between passes in a shorter float format —
  which is the identity on the extended reals — and adds the four products X_d · W_d, each a sum over 64 features, in
  order of degree; the host program lays the four matrices side by side as one 8192 × 256 matrix and takes one product
  with W, a sum over all 256 rows.  The sum over 256 rows is the sum of the four sums over 64 rows (ChebLayer.sum_by_degree):
  a re-indexing of a finite sum in a commutative monoid, valid at the infinities too, so the inputs' finiteness is never used.

  Modules: Spec and Parts state the layer as one function of the four argument arrays; Bodies reads each pass's
  arithmetic at an index; Pass1, Pass2, Pass3 show that each pass's output array is the corresponding function of the
  arrays it found, block by block and then whole; Chain and HostSide carry the arrays between the passes and through
  the host's reshapes; Whole concludes that the result buffer is the layer of the launch arrays; ValueRun is the
  three-pass program's run with its result named; RefValue shows that the host program's result term is the same layer.
  The three frame claims are the runs with the results dropped; nothing was rewritten when the program was idealized,
  so the fourth claim is trivial.
-/
import proofs.«164922_g21182778704682_cont_8to1_185_7_alg».proof.Defs
import proofs.«164922_g21182778704682_cont_8to1_185_7_alg».proof.Proof.Gen.Kernel
import proofs.«164922_g21182778704682_cont_8to1_185_7_alg».proof.Proof.Gen.Kernel.Skeleton
import proofs.«164922_g21182778704682_cont_8to1_185_7_alg».proof.Proof.Gen.Kernel.Launch
import proofs.«164922_g21182778704682_cont_8to1_185_7_alg».proof.Proof.Gen.Kernel.Points
import proofs.«164922_g21182778704682_cont_8to1_185_7_alg».proof.Proof.Gen.Kernel.Frame
import proofs.«164922_g21182778704682_cont_8to1_185_7_alg».proof.Proof.Gen.KernelIdeal
import proofs.«164922_g21182778704682_cont_8to1_185_7_alg».proof.Proof.Gen.KernelIdeal.Skeleton
import proofs.«164922_g21182778704682_cont_8to1_185_7_alg».proof.Proof.Gen.KernelIdeal.Launch
import proofs.«164922_g21182778704682_cont_8to1_185_7_alg».proof.Proof.Gen.KernelIdeal.Points
import proofs.«164922_g21182778704682_cont_8to1_185_7_alg».proof.Proof.Gen.KernelIdeal.Frame
import proofs.«164922_g21182778704682_cont_8to1_185_7_alg».proof.Proof.Gen.ReferenceIdeal
import proofs.«164922_g21182778704682_cont_8to1_185_7_alg».proof.Proof.Gen.ReferenceIdeal.Run
import proofs.«164922_g21182778704682_cont_8to1_185_7_alg».proof.Proof.Gen.ReferenceIdeal.Read
import proofs.«164922_g21182778704682_cont_8to1_185_7_alg».proof.Proof.Gen.Pre_finite_inputs
import proofs.«164922_g21182778704682_cont_8to1_185_7_alg».proof.Proof.ValueRun
import proofs.«164922_g21182778704682_cont_8to1_185_7_alg».proof.Proof.Whole
import proofs.«164922_g21182778704682_cont_8to1_185_7_alg».proof.Proof.RefValue
import Idealize.ShloMosaic.Adequacy
import Idealize.ShloMosaic.Init

noncomputable section

namespace Cert.Proof

open Idealize.ShloMosaic Idealize.ShloMosaic.TcCoe Idealize.SL.Sem

/-- The word-level three-pass program runs and leaves its arguments as launched. -/
theorem frame_kernel : Cert.frame_Kernel := fun m ρ _ => Cert.Kernel.Gen.frame m ρ

/-- So does the three-pass program read over the extended reals. -/
theorem frame_kernelIdeal : Cert.frame_KernelIdeal := fun m ρ _ => Cert.KernelIdeal.Gen.frame m ρ

/-- So does the host program: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their result
    buffers: the three-pass program by its run and `Whole.result_is_layer`, the host program by its run and
    `RefValue.reference_is_layer`. -/
theorem algebraic : Cert.algebraic_KernelIdeal_ReferenceIdeal := by
  intro m ρ m' ρ' _ hagree
  refine ⟨fun c => ChebLayer.layer (fun i => m ((c.tc : Thread Cert.KernelIdeal.nD Cert.KernelIdeal.τ).loc Cert.KernelIdeal.main_arg1) i)
      (fun i => m ((c.tc : Thread Cert.KernelIdeal.nD Cert.KernelIdeal.τ).loc Cert.KernelIdeal.main_arg0) i)
      (fun i => m ((c.tc : Thread Cert.KernelIdeal.nD Cert.KernelIdeal.τ).loc Cert.KernelIdeal.main_arg2) i)
      (fun i => m ((c.tc : Thread Cert.KernelIdeal.nD Cert.KernelIdeal.τ).loc Cert.KernelIdeal.main_arg3) i), ?_, ?_⟩
  · exact (θ_run Cert.KernelIdeal.defs _ _).mono
      (fun r h c => ⟨(h c).1.trans (Cert.KernelIdeal.Whole.result_is_layer m ρ c), (h c).2⟩)
      (Cert.KernelIdeal.ValueRun.run (F := Ideal) m ρ)
  · refine (θ_run Cert.ReferenceIdeal.defs _ _).mono (fun _ h c => ⟨?_, (h c).2⟩) (Cert.ReferenceIdeal.Value.run (F := Ideal) m' ρ')
    refine (h c).1.trans ((Cert.ReferenceIdeal.Read.val_main_v25_eq _ _ _ _).trans ?_)
    rw [Cert.ReferenceIdeal.RefValue.reference_is_layer, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
